-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel

variable [Facts]

def fn {F : FTy → Type} [FloatOps F] (main_arg0 : FVec F S50000x128 .f32) (main_arg1 : IVec S800000 32) (main_arg2 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  main_v3
-- ==== Kernel.lean ====
abbrev S50000x128 : Shape := ⟨2, ![50000, 128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S2000x1 : Shape := ⟨2, ![2000, 1]⟩

abbrev nBuf : Space → Nat
  | .hbm => 58
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S_, .f32⟩
  | .hbm, ⟨4, _⟩ => ⟨S800000, .f32⟩
  | .hbm, ⟨5, _⟩ => ⟨S_, .f32⟩
  | .hbm, ⟨6, _⟩ => ⟨S50000, .f32⟩
  | .hbm, ⟨7, _⟩ => ⟨S800000x1, .i32⟩
  | .hbm, ⟨8, _⟩ => ⟨S50000, .f32⟩
  | .hbm, ⟨9, _⟩ => ⟨S_, .f32⟩
  | .hbm, ⟨10, _⟩ => ⟨S50000, .f32⟩
  | .hbm, ⟨11, _⟩ => ⟨S50000, .f32⟩
  | .hbm, ⟨12, _⟩ => ⟨S50000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x1, .f32⟩
  | .local _ .vmem, ⟨29, _⟩ => ⟨S2000x1, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39_0 : Ref sig .tc := ⟨.hbm, 56, rfl⟩
abbrev main_v39_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17_1) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v28_1) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28_1) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v39_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v39_1) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩

abbrev nBuf : Space → Nat
  | .hbm => 75
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S_, .f32⟩
  | .hbm, ⟨4, _⟩ => ⟨S800000, .f32⟩
  | .hbm, ⟨5, _⟩ => ⟨S_, .f32⟩
  | .hbm, ⟨6, _⟩ => ⟨S50000, .f32⟩
  | .hbm, ⟨7, _⟩ => ⟨S800000x1, .i32⟩
  | .hbm, ⟨8, _⟩ => ⟨S50000, .f32⟩
  | .hbm, ⟨9, _⟩ => ⟨S_, .f32⟩
  | .hbm, ⟨10, _⟩ => ⟨S50000, .f32⟩
  | .hbm, ⟨11, _⟩ => ⟨S50000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S50000x1, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_9 : Ref sig .tc := ⟨.hbm, 54, rfl⟩
abbrev main_v40 : Ref sig .tc := ⟨.hbm, 55, rfl⟩
abbrev main_v41 : Ref sig .tc := ⟨.hbm, 56, rfl⟩
abbrev main_c_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KB.Body.lean ====
/-
  The three kernel bodies, each run on whole staging buffers.

  Each of the three calls has the same body up to its scale factor: it loads the degree column block, the neighbour-sum
  block and the feature block, stores `features + sums / degree` into the first output buffer, loads the running-output
  block and stores `running output + new features · factor` into the second. What it leaves in the two output buffers is
  stated as one piece each over the body's pure payload terms.
-/
import proofs.«162329_j42099269436028_1_alg».proof.Proof.Gen.Kernel.Launch
import proofs.«162329_j42099269436028_1_alg».proof.Proof.Gen.Kernel.Skeleton
import proofs.«162329_j42099269436028_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the body on whole staging buffers -/

/-- The whole 2000×128 block and the whole 2000×1 block, as the rectangles the body loads and stores through. -/
abbrev rN0 : Rect S2000x128 := Rect.unit (s := S2000x128) ![0, 0] S2000x128.size inb_S2000x128_S2000x128_0_0
abbrev rD0 : Rect S2000x1 := Rect.unit (s := S2000x1) ![0, 0] S2000x1.size inb_S2000x1_S2000x1_0_0

/-- What the body leaves in the new-features buffer, from the blocks of the features `x0`, the neighbour sums `x1` and
    the degree column `x2`: its one store, as a piece. -/
def out0_4 (x0 x1 : Vec F S2000x128 .f32) (x2 : Vec F S2000x1 .f32) : Vec F S2000x128 .f32 :=
  View.canon [⟨rN0, k0_pay1 (View.ld x2 rD0) (View.ld x1 rN0) (View.ld x0 rN0)⟩]

/-- What the body leaves in the running-output buffer, from those and the block `x3` of the previous running output. -/
def out0_5 (x0 x1 : Vec F S2000x128 .f32) (x2 : Vec F S2000x1 .f32) (x3 : Vec F S2000x128 .f32) : Vec F S2000x128 .f32 :=
  View.canon [⟨rN0, k0_pay2 (View.ld x2 rD0) (View.ld x1 rN0) (View.ld x0 rN0) (View.ld x3 rN0)⟩]

/-- The one store covers the buffer. -/
theorem cover0 (p0 : Vec F S2000x128 .f32) (y : S2000x128.Idx) :
    ∃ pc ∈ ([⟨rN0, p0⟩] : List (View.Piece (Elt F) S2000x128 .f32)), y ∈ pc.1.set :=
  View.cover_of_tiled [⟨rN0, p0⟩] S2000x128.size (by rfl) y

set_option maxHeartbeats 4000000 in
/-- The body, called on whole staging buffers holding the four input blocks and anything in the two output buffers,
    runs to its continuation with the inputs as they were and the outputs at `out0_4`, `out0_5` of the inputs. -/
theorem sound_kernel0 (c : Dev nD) (E : Set ℕ) (i : grid0.Coords)
    (arg1 : Memref sig .tc .vmem S2000x128 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S2000x128 .f32) (harg4 : arg4.IsWhole)
    (arg5 : Memref sig .tc .vmem S2000x128 .f32) (harg5 : arg5.IsWhole) (arg6 : Memref sig .tc .vmem S2000x128 .f32) (harg6 : arg6.IsWhole)
    (x0 x1 : Vec F S2000x128 .f32) (x2 : Vec F S2000x1 .f32) (x3 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2)
            ∗ owns (c : Thread nD τ) arg6 fullShare (out0_5 x0 x1 x2 x3)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## Region 1: the body on whole staging buffers -/

/-- The whole 2000×128 block and the whole 2000×1 block, as the rectangles the body loads and stores through. -/
abbrev rN1 : Rect S2000x128 := Rect.unit (s := S2000x128) ![0, 0] S2000x128.size inb_S2000x128_S2000x128_0_0
abbrev rD1 : Rect S2000x1 := Rect.unit (s := S2000x1) ![0, 0] S2000x1.size inb_S2000x1_S2000x1_0_0

/-- What the body leaves in the new-features buffer, from the blocks of the features `x0`, the neighbour sums `x1` and
    the degree column `x2`: its one store, as a piece. -/
def out1_4 (x0 x1 : Vec F S2000x128 .f32) (x2 : Vec F S2000x1 .f32) : Vec F S2000x128 .f32 :=
  View.canon [⟨rN1, k1_pay1 (View.ld x2 rD1) (View.ld x1 rN1) (View.ld x0 rN1)⟩]

/-- What the body leaves in the running-output buffer, from those and the block `x3` of the previous running output. -/
def out1_5 (x0 x1 : Vec F S2000x128 .f32) (x2 : Vec F S2000x1 .f32) (x3 : Vec F S2000x128 .f32) : Vec F S2000x128 .f32 :=
  View.canon [⟨rN1, k1_pay2 (View.ld x2 rD1) (View.ld x1 rN1) (View.ld x0 rN1) (View.ld x3 rN1)⟩]

/-- The one store covers the buffer. -/
theorem cover1 (p0 : Vec F S2000x128 .f32) (y : S2000x128.Idx) :
    ∃ pc ∈ ([⟨rN1, p0⟩] : List (View.Piece (Elt F) S2000x128 .f32)), y ∈ pc.1.set :=
  View.cover_of_tiled [⟨rN1, p0⟩] S2000x128.size (by rfl) y

set_option maxHeartbeats 4000000 in
/-- The body, called on whole staging buffers holding the four input blocks and anything in the two output buffers,
    runs to its continuation with the inputs as they were and the outputs at `out1_4`, `out1_5` of the inputs. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S2000x128 .f32) (harg4 : arg4.IsWhole)
    (arg5 : Memref sig .tc .vmem S2000x128 .f32) (harg5 : arg5.IsWhole) (arg6 : Memref sig .tc .vmem S2000x128 .f32) (harg6 : arg6.IsWhole)
    (x0 x1 : Vec F S2000x128 .f32) (x2 : Vec F S2000x1 .f32) (x3 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2)
            ∗ owns (c : Thread nD τ) arg6 fullShare (out1_5 x0 x1 x2 x3)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1 _)
  iexists _; isplitr
  swap; · iexact H5
  ipureintro
  exact View.read_writes_eq_canon _ _ _ (cover1 _)

/-! ## Region 2: the body on whole staging buffers -/

/-- The whole 2000×128 block and the whole 2000×1 block, as the rectangles the body loads and stores through. -/
abbrev rN2 : Rect S2000x128 := Rect.unit (s := S2000x128) ![0, 0] S2000x128.size inb_S2000x128_S2000x128_0_0
abbrev rD2 : Rect S2000x1 := Rect.unit (s := S2000x1) ![0, 0] S2000x1.size inb_S2000x1_S2000x1_0_0

/-- What the body leaves in the new-features buffer, from the blocks of the features `x0`, the neighbour sums `x1` and
    the degree column `x2`: its one store, as a piece. -/
def out2_4 (x0 x1 : Vec F S2000x128 .f32) (x2 : Vec F S2000x1 .f32) : Vec F S2000x128 .f32 :=
  View.canon [⟨rN2, k2_pay1 (View.ld x2 rD2) (View.ld x1 rN2) (View.ld x0 rN2)⟩]

/-- What the body leaves in the running-output buffer, from those and the block `x3` of the previous running output. -/
def out2_5 (x0 x1 : Vec F S2000x128 .f32) (x2 : Vec F S2000x1 .f32) (x3 : Vec F S2000x128 .f32) : Vec F S2000x128 .f32 :=
  View.canon [⟨rN2, k2_pay2 (View.ld x2 rD2) (View.ld x1 rN2) (View.ld x0 rN2) (View.ld x3 rN2)⟩]

/-- The one store covers the buffer. -/
theorem cover2 (p0 : Vec F S2000x128 .f32) (y : S2000x128.Idx) :
    ∃ pc ∈ ([⟨rN2, p0⟩] : List (View.Piece (Elt F) S2000x128 .f32)), y ∈ pc.1.set :=
  View.cover_of_tiled [⟨rN2, p0⟩] S2000x128.size (by rfl) y

set_option maxHeartbeats 4000000 in
/-- The body, called on whole staging buffers holding the four input blocks and anything in the two output buffers,
    runs to its continuation with the inputs as they were and the outputs at `out2_4`, `out2_5` of the inputs. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S2000x128 .f32) (harg4 : arg4.IsWhole)
    (arg5 : Memref sig .tc .vmem S2000x128 .f32) (harg5 : arg5.IsWhole) (arg6 : Memref sig .tc .vmem S2000x128 .f32) (harg6 : arg6.IsWhole)
    (x0 x1 : Vec F S2000x128 .f32) (x2 : Vec F S2000x1 .f32) (x3 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2)
            ∗ owns (c : Thread nD τ) arg6 fullShare (out2_5 x0 x1 x2 x3)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2 _)
  iexists _; isplitr
  swap; · iexact H5
  ipureintro
  exact View.read_writes_eq_canon _ _ _ (cover2 _)

end Cert.Kernel.Fr

end
-- ==== Proof.KB.Data.lean ====
/-
  The proof data of the three regions and their body obligations.

  Each region is stated at a parameter `V`: what the core's buffers hold when the region is entered. A window's block
  at a grid point is read off `V`; an input buffer holds that block whenever the body is called; after the body the
  output buffers hold the body's function of the four input blocks.
-/
import proofs.«162329_j42099269436028_1_alg».proof.Proof.Gen.Kernel.Launch
import proofs.«162329_j42099269436028_1_alg».proof.Proof.Gen.Kernel.Skeleton
import proofs.«162329_j42099269436028_1_alg».proof.Proof.Gen.Kernel.Points
import proofs.«162329_j42099269436028_1_alg».proof.Proof.KB.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0, at the contents `V` the region finds in the buffers -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of region 0 on core `c`: the arrays as the region finds them; after the body at point `t` each
    input's buffer at its block and each output's at what the body computes of the input blocks; nothing owed.
    The features and the running output are ONE array here (the first layer starts both from the input), so its two
    windows hold it at the two halves of the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q w := match w with
    | ⟨0, _⟩ => fullShare.left
    | ⟨1, _⟩ => fullShare
    | ⟨2, _⟩ => fullShare
    | ⟨3, _⟩ => fullShare.right
    | ⟨4, _⟩ => fullShare
    | ⟨5, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! # Region 1, at the contents `V` the region finds in the buffers -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data of region 1 on core `c`: the arrays as the region finds them; after the body at point `t` each
    input's buffer at its block and each output's at what the body computes of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-! # Region 2, at the contents `V` the region finds in the buffers -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The proof data of region 2 on core `c`: the arrays as the region finds them; after the body at point `t` each
    input's buffer at its block and each output's at what the body computes of the input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Vals.lean ====
/-
  What a core's buffers hold at each boundary between @main's items, as a fold from the launch memory: a host stretch
  applies its operations; a region leaves its input arrays as found and each output array at what its write-backs
  leave. The three arguments are written by nothing and reach the end as launched.
-/
import proofs.«162329_j42099269436028_1_alg».proof.Proof.Gen.Kernel.Launch
import proofs.«162329_j42099269436028_1_alg».proof.Proof.Gen.Kernel.Skeleton
import proofs.«162329_j42099269436028_1_alg».proof.Proof.Gen.Kernel.Points
import proofs.«162329_j42099269436028_1_alg».proof.Proof.Gen.Kernel.Regions
import proofs.«162329_j42099269436028_1_alg».proof.Proof.KB.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its two output arrays at what the write-backs leave, everything else as entered (its input
    windows, two of them on one array, write nothing). -/
def W2 (c : Dev nD) : Valuation τ sig (Elt F) :=
  Function.update (Function.update (W1 m ρ c) main_v17_0 ((dat0 (V1 m ρ) c).arrAt 4 cfg0.N)) main_v17_1 ((dat0 (V1 m ρ) c).arrAt 5 cfg0.N)
theorem W2_out4 (c : Dev nD) : W2 m ρ c (Proc.devRef .tc main_v17_0) = (dat0 (V1 m ρ) c).arrAt 4 cfg0.N := by
  unfold W2
  rw [Function.update_of_ne (StableHlo.devRef_ne_of_ne (by decide) : (Proc.devRef .tc main_v17_0 : DevRef τ sig) ≠ Proc.devRef .tc main_v17_1)]
  exact Function.update_self ..
theorem W2_out5 (c : Dev nD) : W2 m ρ c (Proc.devRef .tc main_v17_1) = (dat0 (V1 m ρ) c).arrAt 5 cfg0.N := by
  unfold W2; exact Function.update_self ..
theorem W2_of_ne (c : Dev nD) (b : Ref sig .tc) (h4 : b ≠ main_v17_0) (h5 : b ≠ main_v17_1) :
    W2 m ρ c (Proc.devRef .tc b) = W1 m ρ c (Proc.devRef .tc b) := by
  unfold W2
  rw [Function.update_of_ne (StableHlo.devRef_ne_of_ne h5 : (Proc.devRef .tc b : DevRef τ sig) ≠ Proc.devRef .tc main_v17_1),
    Function.update_of_ne (StableHlo.devRef_ne_of_ne h4 : (Proc.devRef .tc b : DevRef τ sig) ≠ Proc.devRef .tc main_v17_0)]
abbrev V2 : (c : Dev nD) → (b : Ref sig .tc) → Buf (Elt F) ((c : Thread nD τ).loc b) := fun c b => W2 m ρ c b

/-- At region 0's exit each of its arrays holds what the pipeline leaves there: an input its entry contents, an output
    its write-backs. -/
theorem hF0 (c : Dev nD) : ∀ w : Fin 6, (dat0 (V1 m ρ) c).arrAt w cfg0.N = V2 m ρ c (Pipeline.arrRef spec0 w) := fun
  | 0 => ((dat0 (V1 m ρ) c).arrAt_in 0 rfl _).trans ((A_eq0 (V1 m ρ) c 0).trans (W2_of_ne m ρ c main_arg0 (by decide) (by decide)).symm)
  | 1 => ((dat0 (V1 m ρ) c).arrAt_in 1 rfl _).trans ((A_eq0 (V1 m ρ) c 1).trans (W2_of_ne m ρ c main_v16 (by decide) (by decide)).symm)
  | 2 => ((dat0 (V1 m ρ) c).arrAt_in 2 rfl _).trans ((A_eq0 (V1 m ρ) c 2).trans (W2_of_ne m ρ c main_v6 (by decide) (by decide)).symm)
  | 3 => ((dat0 (V1 m ρ) c).arrAt_in 3 rfl _).trans ((A_eq0 (V1 m ρ) c 3).trans (W2_of_ne m ρ c main_arg0 (by decide) (by decide)).symm)
  | 4 => (W2_out4 m ρ c).symm
  | 5 => (W2_out5 m ρ c).symm
  | ⟨_ + 6, h⟩ => absurd h (Nat.not_lt.2 (Nat.le_add_left _ _))
theorem hrest0 (c : Dev nD) : ∀ b, b ∉ Finset.univ.image (Pipeline.arrRef spec0) → V2 m ρ c b = V1 m ρ c b :=
  fun b hb => W2_of_ne m ρ c b (fun e => hb (Finset.mem_image.mpr ⟨4, Finset.mem_univ _, e.symm⟩))
    (fun e => hb (Finset.mem_image.mpr ⟨5, Finset.mem_univ _, e.symm⟩))

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: the end of @main. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## A buffer no item writes reaches the end as launched -/

/-- A reference that no host stretch writes and that is no output array of a region holds at the end what it held at
    launch. -/
theorem W6_kept (c : Dev nD) (b : Ref sig .tc) (h0 : b ∉ hostOps0_W) (h1 : b ∉ hostOps1_W) (h2 : b ∉ hostOps2_W)
    (ha : b ≠ main_v17_0) (hb : b ≠ main_v17_1) (hc : ∀ w, Pipeline.arrRef spec1 w ≠ b) (hd : ∀ w, Pipeline.arrRef spec2 w ≠ b) :
    W6 m ρ c (Proc.devRef .tc b) = m ((c : Thread nD τ).loc b) :=
  calc W6 m ρ c (Proc.devRef .tc b)
    _ = W5 m ρ c (Proc.devRef .tc b) := W6_of_ne m ρ c b hd
    _ = W4 m ρ c (Proc.devRef .tc b) := StableHlo.after_of_writes_sub hostOps2 _ hostOps2_writes h2
    _ = W3 m ρ c (Proc.devRef .tc b) := W4_of_ne m ρ c b hc
    _ = W2 m ρ c (Proc.devRef .tc b) := StableHlo.after_of_writes_sub hostOps1 _ hostOps1_writes h1
    _ = W1 m ρ c (Proc.devRef .tc b) := W2_of_ne m ρ c b ha hb
    _ = W0 m ρ c (Proc.devRef .tc b) := StableHlo.after_of_writes_sub hostOps0 _ hostOps0_writes h0
    _ = m ((c : Thread nD τ).loc b) := rfl

theorem W6_main_arg0 (c : Dev nD) : W6 m ρ c (Proc.devRef .tc main_arg0) = m ((c : Thread nD τ).loc main_arg0) :=
  W6_kept m ρ c main_arg0 (by decide) (by decide) (by decide) (by decide) (by decide) (by decide) (by decide)
theorem W6_main_arg1 (c : Dev nD) : W6 m ρ c (Proc.devRef .tc main_arg1) = m ((c : Thread nD τ).loc main_arg1) :=
  W6_kept m ρ c main_arg1 (by decide) (by decide) (by decide) (by decide) (by decide) (by decide) (by decide)
theorem W6_main_arg2 (c : Dev nD) : W6 m ρ c (Proc.devRef .tc main_arg2) = m ((c : Thread nD τ).loc main_arg2) :=
  W6_kept m ρ c main_arg2 (by decide) (by decide) (by decide) (by decide) (by decide) (by decide) (by decide)

end Cert.Kernel.Fr

end
-- ==== Proof.KB.Reg.lean ====
/-
  The three regions as segments of @main's run.

  Between two items a core holds every unscoped buffer whole at the boundary's contents, beside its generator register
  and its dues at nothing. A region takes its windows' arrays out of that state at its entry and puts them back at its
  exit. Regions 1 and 2 read six distinct arrays. Region 0 reads the input features through TWO windows (as the
  features and as the running output, which the first layer starts equal), so that one buffer is dealt to the two
  windows at the two halves of the full share and recombined at the exit; its other four arrays are whole.
-/
import proofs.«162329_j42099269436028_1_alg».proof.Proof.Gen.Kernel.Launch
import proofs.«162329_j42099269436028_1_alg».proof.Proof.Gen.Kernel.Skeleton
import proofs.«162329_j42099269436028_1_alg».proof.Proof.Gen.Kernel.Points
import proofs.«162329_j42099269436028_1_alg».proof.Proof.KB.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One buffer behind two windows -/

/-- The full share is its left half and its right half. -/
theorem full_halves : fullShare ∈ PCS.op fullShare.left fullShare.right := PosShare.mem_left_op_right fullShare

section Shared
variable (V : (c : Dev nD) → (b : Ref sig .tc) → Buf (Elt F) ((c : Thread nD τ).loc b))

/-- The five distinct buffers behind region 0's six windows, one by one. -/
theorem arrBufs0_list (c : Dev nD) (Vc : (b : Ref sig .tc) → Buf (Elt F) ((c : Thread nD τ).loc b)) :
    (Pipeline.arrBufs spec0 c Vc : sProp 𝕄)
      = iprop((((c : Thread nD τ).loc main_arg0) ↦{fullShare} Vc main_arg0) ∗ (((c : Thread nD τ).loc main_v16) ↦{fullShare} Vc main_v16)
        ∗ (((c : Thread nD τ).loc main_v6) ↦{fullShare} Vc main_v6) ∗ (((c : Thread nD τ).loc main_v17_0) ↦{fullShare} Vc main_v17_0)
        ∗ (((c : Thread nD τ).loc main_v17_1) ↦{fullShare} Vc main_v17_1)) := by
  unfold Pipeline.arrBufs
  exact bigSep_eq_bigSepL_of_eq [main_arg0, main_v16, main_v6, main_v17_0, main_v17_1] (by decide) (by decide) _

/-- Region 0's arrays at contents `G`, window by window: the input features at the left half through window 0 and at
    the right half through window 3, the other four whole. -/
theorem arrays0_eq (c : Dev nD) (G : (w : Fin cfg0.W) → Buf (Elt F) ((cfg0.win w).arr.view.loc (c : Thread nD τ))) :
    ((dat0 V c).arrays G : sProp 𝕄)
      = iprop((((c : Thread nD τ).loc (Pipeline.arrRef spec0 0)) ↦{fullShare.left} G 0)
        ∗ (((c : Thread nD τ).loc (Pipeline.arrRef spec0 1)) ↦{fullShare} G 1)
        ∗ (((c : Thread nD τ).loc (Pipeline.arrRef spec0 2)) ↦{fullShare} G 2)
        ∗ (((c : Thread nD τ).loc (Pipeline.arrRef spec0 3)) ↦{fullShare.right} G 3)
        ∗ (((c : Thread nD τ).loc (Pipeline.arrRef spec0 4)) ↦{fullShare} G 4)
        ∗ (((c : Thread nD τ).loc (Pipeline.arrRef spec0 5)) ↦{fullShare} G 5)) := by
  unfold Dat.arrays
  rw [bigSep_W0, (arr_whole0 0).set_eq_univ, (arr_whole0 1).set_eq_univ, (arr_whole0 2).set_eq_univ,
    (arr_whole0 4).set_eq_univ, (arr_whole0 5).set_eq_univ]
  rfl

/-- ENTRY: the five buffers whole at `Vc` make region 0's arrays at contents read off `Vc`. -/
theorem arrays0_of_bufs (c : Dev nD) (Vc : (b : Ref sig .tc) → Buf (Elt F) ((c : Thread nD τ).loc b))
    (G : (w : Fin cfg0.W) → Buf (Elt F) ((cfg0.win w).arr.view.loc (c : Thread nD τ))) (hG : ∀ w : Fin 6, G w = Vc (Pipeline.arrRef spec0 w)) :
    (Pipeline.arrBufs spec0 c Vc : sProp 𝕄) ⊢ (dat0 V c).arrays G := by
  rw [arrBufs0_list, arrays0_eq, hG 0, hG 1, hG 2, hG 3, hG 4, hG 5]
  iintro ⟨Ha, H1, H2, H4, H5⟩
  ihave Hs := (pointsTo_share full_halves).1 $$ Ha
  icases Hs with ⟨HL, HR⟩
  isplitl [HL]; · iexact HL
  isplitl [H1]; · iexact H1
  isplitl [H2]; · iexact H2
  isplitl [HR]; · iexact HR
  isplitl [H4]; · iexact H4
  iexact H5

/-- EXIT: region 0's arrays at contents read off `Vc` make the five buffers whole at `Vc`. -/
theorem bufs_of_arrays0 (c : Dev nD) (Vc : (b : Ref sig .tc) → Buf (Elt F) ((c : Thread nD τ).loc b))
    (G : (w : Fin cfg0.W) → Buf (Elt F) ((cfg0.win w).arr.view.loc (c : Thread nD τ))) (hG : ∀ w : Fin 6, G w = Vc (Pipeline.arrRef spec0 w)) :
    ((dat0 V c).arrays G : sProp 𝕄) ⊢ Pipeline.arrBufs spec0 c Vc := by
  rw [arrBufs0_list, arrays0_eq, hG 0, hG 1, hG 2, hG 3, hG 4, hG 5]
  iintro ⟨HL, H1, H2, HR, H4, H5⟩
  isplitl [HL HR]
  · iapply (pointsTo_share full_halves).2
    isplitl [HL]; · iexact HL
    iexact HR
  isplitl [H1]; · iexact H1
  isplitl [H2]; · iexact H2
  isplitl [H4]; · iexact H4
  iexact H5

end Shared

variable (m : (ℓ : Loc nD τ sig) → Buf (Elt F) ℓ) (ρ : Dev nD → PrngReg)

/-! ## The proof data family and the thread state -/

/-- No call has a prefetched table. -/
abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. The buffers behind its
    windows are split out of the unscoped buffers, the input features' buffer dealt to its two windows by halves
    (`arrays0_of_bufs`), and put back whole at the exit (`bufs_of_arrays0`). -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest spec0 c (V1 m ρ c)) := by
      rw [Pipeline.unscopedBufs_split₀ cfgs 0 winFacts₀0.arr_unscoped c (V1 m ρ c)]
      exact sep_mono (arrays0_of_bufs (V1 m ρ) c (V1 m ρ c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) := by
      rw [Pipeline.unscopedBufs_split₀ cfgs 0 winFacts₀0.arr_unscoped c (V2 m ρ c)]
      refine sep_mono (bufs_of_arrays0 (V1 m ρ) c (V2 m ρ c) _ (hF0 m ρ c)) (Entails.of_eq ?_)
      unfold Pipeline.unscopedRest
      exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered from every unscoped buffer at `W3`, left at `W4`. Its arrays are
    split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 2 over the thread state: entered from every unscoped buffer at `W5`, left at `W6`. Its arrays are
    split out of the unscoped buffers and put back at the exit contents; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Fr

end
-- ==== Proof.KB.Main.lean ====
/-
  @main's run: three host stretches and three regions in order. Every weakly fair execution from the launch memory
  terminates, nothing faulting, and the final memory holds every unscoped buffer at the last boundary's contents. Read
  at the arguments this is the frame claim; read at the result buffer it names what the program returns: the running
  output array as region 2's write-backs leave it.
-/
import proofs.«162329_j42099269436028_1_alg».proof.Proof.Gen.Kernel.Launch
import proofs.«162329_j42099269436028_1_alg».proof.Proof.Gen.Kernel.Skeleton
import proofs.«162329_j42099269436028_1_alg».proof.Proof.Gen.Kernel.Points
import proofs.«162329_j42099269436028_1_alg».proof.Proof.KB.Reg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's six items in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

/-- @main is the run of those segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and the final memory holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: @main runs to the end, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

/-- THE RESULT NAMED: the same run with the result buffer at what region 2's write-backs leave in the running-output
    array, beside the arguments as launched. -/
theorem run_result : θ_run defs (onTc (τ := τ) (main (F := F))) ⟨m, fun _ => 0, ρ⟩ (fun r => ∀ c : Dev nD,
      r.2.mem ((c.tc : Thread nD τ).loc main_v39_1) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v39_1 (by decide))).trans (W6_arr m ρ c 5),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.Kernel.Fr

end
-- ==== Proof.KI.Body.lean ====
/-
  The three kernel bodies, each run on whole staging buffers.

  Each of the three calls has the same body up to its scale factor: it loads the degree column block, the neighbour-sum
  block and the feature block, stores `features + sums / degree` into the first output buffer, loads the running-output
  block and stores `running output + new features · factor` into the second. What it leaves in the two output buffers is
  stated as one piece each over the body's pure payload terms.
-/
import proofs.«162329_j42099269436028_1_alg».proof.Proof.Gen.KernelIdeal.Launch
import proofs.«162329_j42099269436028_1_alg».proof.Proof.Gen.KernelIdeal.Skeleton
import proofs.«162329_j42099269436028_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Region 0: the body on whole staging buffers -/

/-- The whole 2000×128 block and the whole 2000×1 block, as the rectangles the body loads and stores through. -/
abbrev rN0 : Rect S2000x128 := Rect.unit (s := S2000x128) ![0, 0] S2000x128.size inb_S2000x128_S2000x128_0_0
abbrev rD0 : Rect S2000x1 := Rect.unit (s := S2000x1) ![0, 0] S2000x1.size inb_S2000x1_S2000x1_0_0

/-- What the body leaves in the new-features buffer, from the blocks of the features `x0`, the neighbour sums `x1` and
    the degree column `x2`: its one store, as a piece. -/
def out0_4 (x0 x1 : Vec F S2000x128 .f32) (x2 : Vec F S2000x1 .f32) : Vec F S2000x128 .f32 :=
  View.canon [⟨rN0, k0_pay1 (View.ld x2 rD0) (View.ld x1 rN0) (View.ld x0 rN0)⟩]

/-- What the body leaves in the running-output buffer, from those and the block `x3` of the previous running output. -/
def out0_5 (x0 x1 : Vec F S2000x128 .f32) (x2 : Vec F S2000x1 .f32) (x3 : Vec F S2000x128 .f32) : Vec F S2000x128 .f32 :=
  View.canon [⟨rN0, k0_pay2 (View.ld x2 rD0) (View.ld x1 rN0) (View.ld x0 rN0) (View.ld x3 rN0)⟩]

/-- The one store covers the buffer. -/
theorem cover0 (p0 : Vec F S2000x128 .f32) (y : S2000x128.Idx) :
    ∃ pc ∈ ([⟨rN0, p0⟩] : List (View.Piece (Elt F) S2000x128 .f32)), y ∈ pc.1.set :=
  View.cover_of_tiled [⟨rN0, p0⟩] S2000x128.size (by rfl) y

set_option maxHeartbeats 4000000 in
/-- The body, called on whole staging buffers holding the four input blocks and anything in the two output buffers,
    runs to its continuation with the inputs as they were and the outputs at `out0_4`, `out0_5` of the inputs. -/
theorem sound_kernel0 (c : Dev nD) (E : Set ℕ) (i : grid0.Coords)
    (arg1 : Memref sig .tc .vmem S2000x128 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S2000x128 .f32) (harg4 : arg4.IsWhole)
    (arg5 : Memref sig .tc .vmem S2000x128 .f32) (harg5 : arg5.IsWhole) (arg6 : Memref sig .tc .vmem S2000x128 .f32) (harg6 : arg6.IsWhole)
    (x0 x1 : Vec F S2000x128 .f32) (x2 : Vec F S2000x1 .f32) (x3 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2)
            ∗ owns (c : Thread nD τ) arg6 fullShare (out0_5 x0 x1 x2 x3)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## Region 1: the body on whole staging buffers -/

/-- The whole 2000×128 block and the whole 2000×1 block, as the rectangles the body loads and stores through. -/
abbrev rN1 : Rect S2000x128 := Rect.unit (s := S2000x128) ![0, 0] S2000x128.size inb_S2000x128_S2000x128_0_0
abbrev rD1 : Rect S2000x1 := Rect.unit (s := S2000x1) ![0, 0] S2000x1.size inb_S2000x1_S2000x1_0_0

/-- What the body leaves in the new-features buffer, from the blocks of the features `x0`, the neighbour sums `x1` and
    the degree column `x2`: its one store, as a piece. -/
def out1_4 (x0 x1 : Vec F S2000x128 .f32) (x2 : Vec F S2000x1 .f32) : Vec F S2000x128 .f32 :=
  View.canon [⟨rN1, k1_pay1 (View.ld x2 rD1) (View.ld x1 rN1) (View.ld x0 rN1)⟩]

/-- What the body leaves in the running-output buffer, from those and the block `x3` of the previous running output. -/
def out1_5 (x0 x1 : Vec F S2000x128 .f32) (x2 : Vec F S2000x1 .f32) (x3 : Vec F S2000x128 .f32) : Vec F S2000x128 .f32 :=
  View.canon [⟨rN1, k1_pay2 (View.ld x2 rD1) (View.ld x1 rN1) (View.ld x0 rN1) (View.ld x3 rN1)⟩]

/-- The one store covers the buffer. -/
theorem cover1 (p0 : Vec F S2000x128 .f32) (y : S2000x128.Idx) :
    ∃ pc ∈ ([⟨rN1, p0⟩] : List (View.Piece (Elt F) S2000x128 .f32)), y ∈ pc.1.set :=
  View.cover_of_tiled [⟨rN1, p0⟩] S2000x128.size (by rfl) y

set_option maxHeartbeats 4000000 in
/-- The body, called on whole staging buffers holding the four input blocks and anything in the two output buffers,
    runs to its continuation with the inputs as they were and the outputs at `out1_4`, `out1_5` of the inputs. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S2000x128 .f32) (harg4 : arg4.IsWhole)
    (arg5 : Memref sig .tc .vmem S2000x128 .f32) (harg5 : arg5.IsWhole) (arg6 : Memref sig .tc .vmem S2000x128 .f32) (harg6 : arg6.IsWhole)
    (x0 x1 : Vec F S2000x128 .f32) (x2 : Vec F S2000x1 .f32) (x3 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2)
            ∗ owns (c : Thread nD τ) arg6 fullShare (out1_5 x0 x1 x2 x3)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1 _)
  iexists _; isplitr
  swap; · iexact H5
  ipureintro
  exact View.read_writes_eq_canon _ _ _ (cover1 _)

/-! ## Region 2: the body on whole staging buffers -/

/-- The whole 2000×128 block and the whole 2000×1 block, as the rectangles the body loads and stores through. -/
abbrev rN2 : Rect S2000x128 := Rect.unit (s := S2000x128) ![0, 0] S2000x128.size inb_S2000x128_S2000x128_0_0
abbrev rD2 : Rect S2000x1 := Rect.unit (s := S2000x1) ![0, 0] S2000x1.size inb_S2000x1_S2000x1_0_0

/-- What the body leaves in the new-features buffer, from the blocks of the features `x0`, the neighbour sums `x1` and
    the degree column `x2`: its one store, as a piece. -/
def out2_4 (x0 x1 : Vec F S2000x128 .f32) (x2 : Vec F S2000x1 .f32) : Vec F S2000x128 .f32 :=
  View.canon [⟨rN2, k2_pay1 (View.ld x2 rD2) (View.ld x1 rN2) (View.ld x0 rN2)⟩]

/-- What the body leaves in the running-output buffer, from those and the block `x3` of the previous running output. -/
def out2_5 (x0 x1 : Vec F S2000x128 .f32) (x2 : Vec F S2000x1 .f32) (x3 : Vec F S2000x128 .f32) : Vec F S2000x128 .f32 :=
  View.canon [⟨rN2, k2_pay2 (View.ld x2 rD2) (View.ld x1 rN2) (View.ld x0 rN2) (View.ld x3 rN2)⟩]

/-- The one store covers the buffer. -/
theorem cover2 (p0 : Vec F S2000x128 .f32) (y : S2000x128.Idx) :
    ∃ pc ∈ ([⟨rN2, p0⟩] : List (View.Piece (Elt F) S2000x128 .f32)), y ∈ pc.1.set :=
  View.cover_of_tiled [⟨rN2, p0⟩] S2000x128.size (by rfl) y

set_option maxHeartbeats 4000000 in
/-- The body, called on whole staging buffers holding the four input blocks and anything in the two output buffers,
    runs to its continuation with the inputs as they were and the outputs at `out2_4`, `out2_5` of the inputs. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S2000x128 .f32) (harg4 : arg4.IsWhole)
    (arg5 : Memref sig .tc .vmem S2000x128 .f32) (harg5 : arg5.IsWhole) (arg6 : Memref sig .tc .vmem S2000x128 .f32) (harg6 : arg6.IsWhole)
    (x0 x1 : Vec F S2000x128 .f32) (x2 : Vec F S2000x1 .f32) (x3 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2)
            ∗ owns (c : Thread nD τ) arg6 fullShare (out2_5 x0 x1 x2 x3)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2 _)
  iexists _; isplitr
  swap; · iexact H5
  ipureintro
  exact View.read_writes_eq_canon _ _ _ (cover2 _)

end Cert.KernelIdeal.Fr

end
-- ==== Proof.KI.Data.lean ====
/-
  The proof data of the three regions and their body obligations.

  Each region is stated at a parameter `V`: what the core's buffers hold when the region is entered. A window's block
  at a grid point is read off `V`; an input buffer holds that block whenever the body is called; after the body the
  output buffers hold the body's function of the four input blocks.
-/
import proofs.«162329_j42099269436028_1_alg».proof.Proof.Gen.KernelIdeal.Launch
import proofs.«162329_j42099269436028_1_alg».proof.Proof.Gen.KernelIdeal.Skeleton
import proofs.«162329_j42099269436028_1_alg».proof.Proof.Gen.KernelIdeal.Points
import proofs.«162329_j42099269436028_1_alg».proof.Proof.KI.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 0, at the contents `V` the region finds in the buffers -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of region 0 on core `c`: the arrays as the region finds them; after the body at point `t` each
    input's buffer at its block and each output's at what the body computes of the input blocks; nothing owed.
    The features and the running output are ONE array here (the first layer starts both from the input), so its two
    windows hold it at the two halves of the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q w := match w with
    | ⟨0, _⟩ => fullShare.left
    | ⟨1, _⟩ => fullShare
    | ⟨2, _⟩ => fullShare
    | ⟨3, _⟩ => fullShare.right
    | ⟨4, _⟩ => fullShare
    | ⟨5, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! # Region 1, at the contents `V` the region finds in the buffers -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data of region 1 on core `c`: the arrays as the region finds them; after the body at point `t` each
    input's buffer at its block and each output's at what the body computes of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-! # Region 2, at the contents `V` the region finds in the buffers -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The proof data of region 2 on core `c`: the arrays as the region finds them; after the body at point `t` each
    input's buffer at its block and each output's at what the body computes of the input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Vals.lean ====
/-
  What a core's buffers hold at each boundary between @main's items, as a fold from the launch memory: a host stretch
  applies its operations; a region leaves its input arrays as found and each output array at what its write-backs
  leave. The three arguments are written by nothing and reach the end as launched.
-/
import proofs.«162329_j42099269436028_1_alg».proof.Proof.Gen.KernelIdeal.Launch
import proofs.«162329_j42099269436028_1_alg».proof.Proof.Gen.KernelIdeal.Skeleton
import proofs.«162329_j42099269436028_1_alg».proof.Proof.Gen.KernelIdeal.Points
import proofs.«162329_j42099269436028_1_alg».proof.Proof.Gen.KernelIdeal.Regions
import proofs.«162329_j42099269436028_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its two output arrays at what the write-backs leave, everything else as entered (its input
    windows, two of them on one array, write nothing). -/
def W2 (c : Dev nD) : Valuation τ sig (Elt F) :=
  Function.update (Function.update (W1 m ρ c) main_v17_0 ((dat0 (V1 m ρ) c).arrAt 4 cfg0.N)) main_v17_1 ((dat0 (V1 m ρ) c).arrAt 5 cfg0.N)
theorem W2_out4 (c : Dev nD) : W2 m ρ c (Proc.devRef .tc main_v17_0) = (dat0 (V1 m ρ) c).arrAt 4 cfg0.N := by
  unfold W2
  rw [Function.update_of_ne (StableHlo.devRef_ne_of_ne (by decide) : (Proc.devRef .tc main_v17_0 : DevRef τ sig) ≠ Proc.devRef .tc main_v17_1)]
  exact Function.update_self ..
theorem W2_out5 (c : Dev nD) : W2 m ρ c (Proc.devRef .tc main_v17_1) = (dat0 (V1 m ρ) c).arrAt 5 cfg0.N := by
  unfold W2; exact Function.update_self ..
theorem W2_of_ne (c : Dev nD) (b : Ref sig .tc) (h4 : b ≠ main_v17_0) (h5 : b ≠ main_v17_1) :
    W2 m ρ c (Proc.devRef .tc b) = W1 m ρ c (Proc.devRef .tc b) := by
  unfold W2
  rw [Function.update_of_ne (StableHlo.devRef_ne_of_ne h5 : (Proc.devRef .tc b : DevRef τ sig) ≠ Proc.devRef .tc main_v17_1),
    Function.update_of_ne (StableHlo.devRef_ne_of_ne h4 : (Proc.devRef .tc b : DevRef τ sig) ≠ Proc.devRef .tc main_v17_0)]
abbrev V2 : (c : Dev nD) → (b : Ref sig .tc) → Buf (Elt F) ((c : Thread nD τ).loc b) := fun c b => W2 m ρ c b

/-- At region 0's exit each of its arrays holds what the pipeline leaves there: an input its entry contents, an output
    its write-backs. -/
theorem hF0 (c : Dev nD) : ∀ w : Fin 6, (dat0 (V1 m ρ) c).arrAt w cfg0.N = V2 m ρ c (Pipeline.arrRef spec0 w) := fun
  | 0 => ((dat0 (V1 m ρ) c).arrAt_in 0 rfl _).trans ((A_eq0 (V1 m ρ) c 0).trans (W2_of_ne m ρ c main_arg0 (by decide) (by decide)).symm)
  | 1 => ((dat0 (V1 m ρ) c).arrAt_in 1 rfl _).trans ((A_eq0 (V1 m ρ) c 1).trans (W2_of_ne m ρ c main_v16 (by decide) (by decide)).symm)
  | 2 => ((dat0 (V1 m ρ) c).arrAt_in 2 rfl _).trans ((A_eq0 (V1 m ρ) c 2).trans (W2_of_ne m ρ c main_v6 (by decide) (by decide)).symm)
  | 3 => ((dat0 (V1 m ρ) c).arrAt_in 3 rfl _).trans ((A_eq0 (V1 m ρ) c 3).trans (W2_of_ne m ρ c main_arg0 (by decide) (by decide)).symm)
  | 4 => (W2_out4 m ρ c).symm
  | 5 => (W2_out5 m ρ c).symm
  | ⟨_ + 6, h⟩ => absurd h (Nat.not_lt.2 (Nat.le_add_left _ _))
theorem hrest0 (c : Dev nD) : ∀ b, b ∉ Finset.univ.image (Pipeline.arrRef spec0) → V2 m ρ c b = V1 m ρ c b :=
  fun b hb => W2_of_ne m ρ c b (fun e => hb (Finset.mem_image.mpr ⟨4, Finset.mem_univ _, e.symm⟩))
    (fun e => hb (Finset.mem_image.mpr ⟨5, Finset.mem_univ _, e.symm⟩))

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: the end of @main. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## A buffer no item writes reaches the end as launched -/

/-- A reference that no host stretch writes and that is no output array of a region holds at the end what it held at
    launch. -/
theorem W6_kept (c : Dev nD) (b : Ref sig .tc) (h0 : b ∉ hostOps0_W) (h1 : b ∉ hostOps1_W) (h2 : b ∉ hostOps2_W)
    (ha : b ≠ main_v17_0) (hb : b ≠ main_v17_1) (hc : ∀ w, Pipeline.arrRef spec1 w ≠ b) (hd : ∀ w, Pipeline.arrRef spec2 w ≠ b) :
    W6 m ρ c (Proc.devRef .tc b) = m ((c : Thread nD τ).loc b) :=
  calc W6 m ρ c (Proc.devRef .tc b)
    _ = W5 m ρ c (Proc.devRef .tc b) := W6_of_ne m ρ c b hd
    _ = W4 m ρ c (Proc.devRef .tc b) := StableHlo.after_of_writes_sub hostOps2 _ hostOps2_writes h2
    _ = W3 m ρ c (Proc.devRef .tc b) := W4_of_ne m ρ c b hc
    _ = W2 m ρ c (Proc.devRef .tc b) := StableHlo.after_of_writes_sub hostOps1 _ hostOps1_writes h1
    _ = W1 m ρ c (Proc.devRef .tc b) := W2_of_ne m ρ c b ha hb
    _ = W0 m ρ c (Proc.devRef .tc b) := StableHlo.after_of_writes_sub hostOps0 _ hostOps0_writes h0
    _ = m ((c : Thread nD τ).loc b) := rfl

theorem W6_main_arg0 (c : Dev nD) : W6 m ρ c (Proc.devRef .tc main_arg0) = m ((c : Thread nD τ).loc main_arg0) :=
  W6_kept m ρ c main_arg0 (by decide) (by decide) (by decide) (by decide) (by decide) (by decide) (by decide)
theorem W6_main_arg1 (c : Dev nD) : W6 m ρ c (Proc.devRef .tc main_arg1) = m ((c : Thread nD τ).loc main_arg1) :=
  W6_kept m ρ c main_arg1 (by decide) (by decide) (by decide) (by decide) (by decide) (by decide) (by decide)
theorem W6_main_arg2 (c : Dev nD) : W6 m ρ c (Proc.devRef .tc main_arg2) = m ((c : Thread nD τ).loc main_arg2) :=
  W6_kept m ρ c main_arg2 (by decide) (by decide) (by decide) (by decide) (by decide) (by decide) (by decide)

end Cert.KernelIdeal.Fr

end
-- ==== Proof.KI.Reg.lean ====
/-
  The three regions as segments of @main's run.

  Between two items a core holds every unscoped buffer whole at the boundary's contents, beside its generator register
  and its dues at nothing. A region takes its windows' arrays out of that state at its entry and puts them back at its
  exit. Regions 1 and 2 read six distinct arrays. Region 0 reads the input features through TWO windows (as the
  features and as the running output, which the first layer starts equal), so that one buffer is dealt to the two
  windows at the two halves of the full share and recombined at the exit; its other four arrays are whole.
-/
import proofs.«162329_j42099269436028_1_alg».proof.Proof.Gen.KernelIdeal.Launch
import proofs.«162329_j42099269436028_1_alg».proof.Proof.Gen.KernelIdeal.Skeleton
import proofs.«162329_j42099269436028_1_alg».proof.Proof.Gen.KernelIdeal.Points
import proofs.«162329_j42099269436028_1_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One buffer behind two windows -/

/-- The full share is its left half and its right half. -/
theorem full_halves : fullShare ∈ PCS.op fullShare.left fullShare.right := PosShare.mem_left_op_right fullShare

section Shared
variable (V : (c : Dev nD) → (b : Ref sig .tc) → Buf (Elt F) ((c : Thread nD τ).loc b))

/-- The five distinct buffers behind region 0's six windows, one by one. -/
theorem arrBufs0_list (c : Dev nD) (Vc : (b : Ref sig .tc) → Buf (Elt F) ((c : Thread nD τ).loc b)) :
    (Pipeline.arrBufs spec0 c Vc : sProp 𝕄)
      = iprop((((c : Thread nD τ).loc main_arg0) ↦{fullShare} Vc main_arg0) ∗ (((c : Thread nD τ).loc main_v16) ↦{fullShare} Vc main_v16)
        ∗ (((c : Thread nD τ).loc main_v6) ↦{fullShare} Vc main_v6) ∗ (((c : Thread nD τ).loc main_v17_0) ↦{fullShare} Vc main_v17_0)
        ∗ (((c : Thread nD τ).loc main_v17_1) ↦{fullShare} Vc main_v17_1)) := by
  unfold Pipeline.arrBufs
  exact bigSep_eq_bigSepL_of_eq [main_arg0, main_v16, main_v6, main_v17_0, main_v17_1] (by decide) (by decide) _

/-- Region 0's arrays at contents `G`, window by window: the input features at the left half through window 0 and at
    the right half through window 3, the other four whole. -/
theorem arrays0_eq (c : Dev nD) (G : (w : Fin cfg0.W) → Buf (Elt F) ((cfg0.win w).arr.view.loc (c : Thread nD τ))) :
    ((dat0 V c).arrays G : sProp 𝕄)
      = iprop((((c : Thread nD τ).loc (Pipeline.arrRef spec0 0)) ↦{fullShare.left} G 0)
        ∗ (((c : Thread nD τ).loc (Pipeline.arrRef spec0 1)) ↦{fullShare} G 1)
        ∗ (((c : Thread nD τ).loc (Pipeline.arrRef spec0 2)) ↦{fullShare} G 2)
        ∗ (((c : Thread nD τ).loc (Pipeline.arrRef spec0 3)) ↦{fullShare.right} G 3)
        ∗ (((c : Thread nD τ).loc (Pipeline.arrRef spec0 4)) ↦{fullShare} G 4)
        ∗ (((c : Thread nD τ).loc (Pipeline.arrRef spec0 5)) ↦{fullShare} G 5)) := by
  unfold Dat.arrays
  rw [bigSep_W0, (arr_whole0 0).set_eq_univ, (arr_whole0 1).set_eq_univ, (arr_whole0 2).set_eq_univ,
    (arr_whole0 4).set_eq_univ, (arr_whole0 5).set_eq_univ]
  rfl

/-- ENTRY: the five buffers whole at `Vc` make region 0's arrays at contents read off `Vc`. -/
theorem arrays0_of_bufs (c : Dev nD) (Vc : (b : Ref sig .tc) → Buf (Elt F) ((c : Thread nD τ).loc b))
    (G : (w : Fin cfg0.W) → Buf (Elt F) ((cfg0.win w).arr.view.loc (c : Thread nD τ))) (hG : ∀ w : Fin 6, G w = Vc (Pipeline.arrRef spec0 w)) :
    (Pipeline.arrBufs spec0 c Vc : sProp 𝕄) ⊢ (dat0 V c).arrays G := by
  rw [arrBufs0_list, arrays0_eq, hG 0, hG 1, hG 2, hG 3, hG 4, hG 5]
  iintro ⟨Ha, H1, H2, H4, H5⟩
  ihave Hs := (pointsTo_share full_halves).1 $$ Ha
  icases Hs with ⟨HL, HR⟩
  isplitl [HL]; · iexact HL
  isplitl [H1]; · iexact H1
  isplitl [H2]; · iexact H2
  isplitl [HR]; · iexact HR
  isplitl [H4]; · iexact H4
  iexact H5

/-- EXIT: region 0's arrays at contents read off `Vc` make the five buffers whole at `Vc`. -/
theorem bufs_of_arrays0 (c : Dev nD) (Vc : (b : Ref sig .tc) → Buf (Elt F) ((c : Thread nD τ).loc b))
    (G : (w : Fin cfg0.W) → Buf (Elt F) ((cfg0.win w).arr.view.loc (c : Thread nD τ))) (hG : ∀ w : Fin 6, G w = Vc (Pipeline.arrRef spec0 w)) :
    ((dat0 V c).arrays G : sProp 𝕄) ⊢ Pipeline.arrBufs spec0 c Vc := by
  rw [arrBufs0_list, arrays0_eq, hG 0, hG 1, hG 2, hG 3, hG 4, hG 5]
  iintro ⟨HL, H1, H2, HR, H4, H5⟩
  isplitl [HL HR]
  · iapply (pointsTo_share full_halves).2
    isplitl [HL]; · iexact HL
    iexact HR
  isplitl [H1]; · iexact H1
  isplitl [H2]; · iexact H2
  isplitl [H4]; · iexact H4
  iexact H5

end Shared

variable (m : (ℓ : Loc nD τ sig) → Buf (Elt F) ℓ) (ρ : Dev nD → PrngReg)

/-! ## The proof data family and the thread state -/

/-- No call has a prefetched table. -/
abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. The buffers behind its
    windows are split out of the unscoped buffers, the input features' buffer dealt to its two windows by halves
    (`arrays0_of_bufs`), and put back whole at the exit (`bufs_of_arrays0`). -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest spec0 c (V1 m ρ c)) := by
      rw [Pipeline.unscopedBufs_split₀ cfgs 0 winFacts₀0.arr_unscoped c (V1 m ρ c)]
      exact sep_mono (arrays0_of_bufs (V1 m ρ) c (V1 m ρ c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) := by
      rw [Pipeline.unscopedBufs_split₀ cfgs 0 winFacts₀0.arr_unscoped c (V2 m ρ c)]
      refine sep_mono (bufs_of_arrays0 (V1 m ρ) c (V2 m ρ c) _ (hF0 m ρ c)) (Entails.of_eq ?_)
      unfold Pipeline.unscopedRest
      exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered from every unscoped buffer at `W3`, left at `W4`. Its arrays are
    split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 2 over the thread state: entered from every unscoped buffer at `W5`, left at `W6`. Its arrays are
    split out of the unscoped buffers and put back at the exit contents; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Fr

end
-- ==== Proof.KI.Main.lean ====
/-
  @main's run: three host stretches and three regions in order. Every weakly fair execution from the launch memory
  terminates, nothing faulting, and the final memory holds every unscoped buffer at the last boundary's contents. Read
  at the arguments this is the frame claim; read at the result buffer it names what the program returns: the running
  output array as region 2's write-backs leave it.
-/
import proofs.«162329_j42099269436028_1_alg».proof.Proof.Gen.KernelIdeal.Launch
import proofs.«162329_j42099269436028_1_alg».proof.Proof.Gen.KernelIdeal.Skeleton
import proofs.«162329_j42099269436028_1_alg».proof.Proof.Gen.KernelIdeal.Points
import proofs.«162329_j42099269436028_1_alg».proof.Proof.KI.Reg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's six items in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

/-- @main is the run of those segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and the final memory holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: @main runs to the end, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

/-- THE RESULT NAMED: the same run with the result buffer at what region 2's write-backs leave in the running-output
    array, beside the arguments as launched. -/
theorem run_result : θ_run defs (onTc (τ := τ) (main (F := F))) ⟨m, fun _ => 0, ρ⟩ (fun r => ∀ c : Dev nD,
      r.2.mem ((c.tc : Thread nD τ).loc main_v39_1) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v39_1 (by decide))).trans (W6_arr m ρ c 5),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.KernelIdeal.Fr

end
-- ==== Proof.Spec.lean ====
/-
  The mathematics of the three-layer mean-aggregation network, stated once over the extended reals with no program
  in sight.

  A layer takes the current node features `tmp` (50000 nodes, 128 features each), the neighbour sums `agg` of the same
  shape and the degree column `deg` (one positive number per node) and returns `tmp + agg / deg`, the division row by
  row. The running output adds each layer's new features scaled by a factor `s` (1, 1/2, 1/3 for the three layers).
  The neighbour sum is an arbitrary function `A` of the features here: both programs compute it by the same gather and
  scatter-add, which nothing below needs to open.
-/
import Idealize.ShloMosaic.PureOps.Ideal
import Idealize.ShloMosaic.Lib.ValueIdx

noncomputable section

namespace Cert.Sage

open Idealize.ShloMosaic Idealize.ShloMosaic.ValueIdx

/-- The shape of a node-feature array: 50000 rows of 128. -/
abbrev SN : Shape := ⟨2, ![50000, 128]⟩
/-- The shape of a per-node column: 50000 rows of 1. -/
abbrev SD : Shape := ⟨2, ![50000, 1]⟩

/-- One layer's new features: every entry of `tmp` plus the neighbour sum at that entry divided by its row's degree. -/
def stepTmp (tmp agg : FVec Ideal SN .f32) (deg : FVec Ideal SD .f32) : FVec Ideal SN .f32 :=
  fun i => tmp i + Ideal.div (agg i) (deg (ix2 (n0 := 50000) (i 0) (0 : Fin 1)))

/-- The running output after a layer: the previous output plus the layer's new features times the layer's factor. -/
def stepRes (res t : FVec Ideal SN .f32) (s : EReal) : FVec Ideal SN .f32 :=
  fun i => res i + t i * s

/-- Three layers from features `h`: the neighbour sum `A` is taken of each layer's input features, the degree column
    `D` is the same for all three, the factors are `s1`, `s2`, `s3`; the result is the running output after the third. -/
def sage3 (A : FVec Ideal SN .f32 → FVec Ideal SN .f32) (D : FVec Ideal SD .f32) (s1 s2 s3 : EReal)
    (h : FVec Ideal SN .f32) : FVec Ideal SN .f32 :=
  let t1 := stepTmp h (A h) D
  let r1 := stepRes h t1 s1
  let t2 := stepTmp t1 (A t1) D
  let r2 := stepRes r1 t2 s2
  let t3 := stepTmp t2 (A t2) D
  stepRes r2 t3 s3

theorem stepTmp_apply (tmp agg : FVec Ideal SN .f32) (deg : FVec Ideal SD .f32) (a : Fin 50000) (b : Fin 128) :
    stepTmp tmp agg deg (ix2 a b) = tmp (ix2 a b) + Ideal.div (agg (ix2 a b)) (deg (ix2 a (0 : Fin 1))) := rfl

theorem stepRes_apply (res t : FVec Ideal SN .f32) (s : EReal) (i : SN.Idx) : stepRes res t s i = res i + t i * s := rfl

end Cert.Sage

end
-- ==== Proof.Consts.lean ====
/-
  The float words the two programs spell, as the real numbers they denote: 1, 1/2, 2 and 3. Dividing an extended real
  by 1, 2 or 3 is multiplying it by 1, 1/2 or 1/3, at the infinities too.
-/
import Idealize.ShloMosaic.PureOps.Ideal

noncomputable section

namespace Cert.Sage.Consts

open Idealize.ShloMosaic

theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

/-- Division by the word 1.0 is multiplication by 1/1. -/
theorem div_one (x : EReal) : Ideal.div x (Ideal.ofBits .f32 0x3F800000#32) = x * ((1 / 1 : ℝ) : EReal) := by
  rw [ofBits_one]; exact Ideal.div_coe (by norm_num) x
/-- Division by the word 2.0 is multiplication by 1/2. -/
theorem div_two (x : EReal) : Ideal.div x (Ideal.ofBits .f32 0x40000000#32) = x * ((1 / 2 : ℝ) : EReal) := by
  rw [ofBits_two]; exact Ideal.div_coe (by norm_num) x
/-- Division by the word 3.0 is multiplication by 1/3. -/
theorem div_three (x : EReal) : Ideal.div x (Ideal.ofBits .f32 0x40400000#32) = x * ((1 / 3 : ℝ) : EReal) := by
  rw [ofBits_three]; exact Ideal.div_coe (by norm_num) x
/-- The word 1.0 is 1/1. -/
theorem ofBits_one' : Ideal.ofBits .f32 0x3F800000#32 = ((1 / 1 : ℝ) : EReal) := by
  rw [ofBits_one]; norm_num

end Cert.Sage.Consts

end
-- ==== Proof.KI.Value.lean ====
/-
  What the three regions leave in their output arrays, as functions of the arrays they find.

  Every region runs the same body at 25 grid points. Point t works on rows 2000·t … 2000·t + 1999 of every array: the
  features, the neighbour sums and the running output in blocks of 2000 rows of 128, the degree column in a block of
  2000 rows of 1. The body's two results at a position of the block depend on the inputs at the same position and on
  the degree of the same row, so what point t writes back is block t of one function of the whole arrays: the layer
  step of the specification. The 25 blocks cover all 50000 rows (row r lies in block r / 2000), so after the region each
  output array is that function.
-/
import proofs.«162329_j42099269436028_1_alg».proof.Proof.KI.Data
import proofs.«162329_j42099269436028_1_alg».proof.Proof.Spec
import proofs.«162329_j42099269436028_1_alg».proof.Proof.Consts
import Idealize.ShloMosaic.Lib.Pipeline.Value
import Idealize.ShloMosaic.Lib.ValueIdx
import Idealize.ShloMosaic.PureOps.IdealRules

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The body's arithmetic at a position of a block -/

/-- The zero offsets of the body's loads and stores. -/
theorem zero_offsets : (![0, 0] : Fin 2 → Nat) = fun _ => 0 := funext fun a => by fin_cases a <;> rfl

/-- The degree block repeated along the rows, read at row p and position q, is the degree of row p. -/
theorem col_repeat (x2 : FVec Ideal S2000x1 .f32) (p : Fin 2000) (q : Fin 128) :
    broadcastTo S2000x128 x2 broadcasts_S2000x1_S2000x128 (ix2 p q) = x2 (ix2 p (0 : Fin 1)) :=
  broadcastTo_apply x2 broadcasts_S2000x1_S2000x128 (ix2 p q) (ix2 p (0 : Fin 1)) (fun a => match a with
    | ⟨0, _⟩ => by show p.val = if (2000 : Nat) = 1 then 0 else p.val; rw [if_neg (by decide)]
    | ⟨1, _⟩ => by show 0 = if (1 : Nat) = 1 then 0 else q.val; rw [if_pos rfl])

/-! ## Region 0 -/

/-- The new features at row p and position q of a block: the feature plus the neighbour sum over the row's degree. -/
theorem pay1_0_apply (v0 : FVec Ideal S2000x1 .f32) (v2 v6 : FVec Ideal S2000x128 .f32) (p : Fin 2000) (q : Fin 128) :
    k0_pay1 (F := Ideal) v0 v2 v6 (ix2 p q) = v6 (ix2 p q) + Ideal.div (v2 (ix2 p q)) (v0 (ix2 p (0 : Fin 1))) := by
  unfold k0_pay1
  simp only [shapeCast_self]
  show v6 (ix2 p q) + Ideal.div (v2 (ix2 p q)) (broadcastTo S2000x128 v0 broadcasts_S2000x1_S2000x128 (ix2 p q)) = _
  rw [col_repeat]

/-- The running output there: the previous running output plus the new features times the layer's factor. -/
theorem pay2_0_apply (v0 : FVec Ideal S2000x1 .f32) (v2 v6 v9 : FVec Ideal S2000x128 .f32) (p : Fin 2000) (q : Fin 128) :
    k0_pay2 (F := Ideal) v0 v2 v6 v9 (ix2 p q)
      = v9 (ix2 p q) + (v6 (ix2 p q) + Ideal.div (v2 (ix2 p q)) (v0 (ix2 p (0 : Fin 1)))) * ((1 / 1 : ℝ) : EReal) := by
  unfold k0_pay2
  show v9 (ix2 p q) + k0_pay1 (F := Ideal) v0 v2 v6 (ix2 p q) * _ = _
  rw [pay1_0_apply]
  exact congrArg (fun z => v9 (ix2 p q) + (v6 (ix2 p q) + Ideal.div (v2 (ix2 p q)) (v0 (ix2 p (0 : Fin 1)))) * z) Cert.Sage.Consts.ofBits_one'

/-- At a position j of a block whose inputs are the arrays A, B, D read at the array position i (the degree at i's
    row), the body's first result is the layer's new features at i. -/
theorem tmp_point0 (x0 x1 : FVec Ideal S2000x128 .f32) (x2 : FVec Ideal S2000x1 .f32)
    (A B : FVec Ideal Cert.Sage.SN .f32) (D : FVec Ideal Cert.Sage.SD .f32) (j : S2000x128.Idx) (i : Cert.Sage.SN.Idx)
    (h0 : x0 j = A i) (h1 : x1 j = B i)
    (h2 : x2 (ix2 (n0 := 2000) (j 0) (0 : Fin 1)) = D (ix2 (n0 := 50000) (i 0) (0 : Fin 1))) :
    k0_pay1 (F := Ideal) x2 x1 x0 j = Cert.Sage.stepTmp A B D i := by
  obtain ⟨p, q, rfl⟩ : ∃ (p : Fin 2000) (q : Fin 128), j = ix2 p q := ⟨j 0, j 1, eq_ix2 j⟩
  rw [pay1_0_apply]
  show _ = A i + Ideal.div (B i) (D (ix2 (n0 := 50000) (i 0) (0 : Fin 1)))
  rw [← h0, ← h1, ← h2]

/-- And with the running output R read at i too, the body's second result is the layer's running output at i. -/
theorem res_point0 (x0 x1 x3 : FVec Ideal S2000x128 .f32) (x2 : FVec Ideal S2000x1 .f32)
    (A B R : FVec Ideal Cert.Sage.SN .f32) (D : FVec Ideal Cert.Sage.SD .f32) (j : S2000x128.Idx) (i : Cert.Sage.SN.Idx)
    (h0 : x0 j = A i) (h1 : x1 j = B i)
    (h2 : x2 (ix2 (n0 := 2000) (j 0) (0 : Fin 1)) = D (ix2 (n0 := 50000) (i 0) (0 : Fin 1))) (h3 : x3 j = R i) :
    k0_pay2 (F := Ideal) x2 x1 x0 x3 j
      = Cert.Sage.stepRes R (Cert.Sage.stepTmp A B D) ((1 / 1 : ℝ) : EReal) i := by
  obtain ⟨p, q, rfl⟩ : ∃ (p : Fin 2000) (q : Fin 128), j = ix2 p q := ⟨j 0, j 1, eq_ix2 j⟩
  rw [pay2_0_apply]
  show _ = R i + (A i + Ideal.div (B i) (D (ix2 (n0 := 50000) (i 0) (0 : Fin 1)))) * _
  rw [← h0, ← h1, ← h2, ← h3]

/-- The printed index maps, decided over the 25 points: every window's block at point t is block row t, block column 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point t writes back to output window 4's array is block t of the layer's new features. -/
theorem flushed0_4_eq (c : Dev nD) (t : Fin cfg0.N) :
    (dat0 (F := Ideal) V c).flushed 4 t = ((cfg0.win 4).blk t).view.read (Elt Ideal) (Cert.Sage.stepTmp (V c main_arg0) (V c main_v16) (V c main_v6)) := by
  show (cfg0.win 4).cut (grid0.coords t) ((dat0 (F := Ideal) V c).after 4 t) = _
  rw [after0_4]
  unfold out0_4
  rw [View.canon_unit_zero zero_offsets]
  simp only [View.ld_unit_zero (S := S2000x128) zero_offsets, View.ld_unit_zero (S := S2000x1) zero_offsets]
  obtain ⟨e00, e01, e10, e11, e20, e21, e30, e31, e40, e41, e50, e51⟩ := idx0 t
  funext j
  have h0 : ((cfg0.win 0).blk t).view.emb j = ((cfg0.win 4).blk t).view.emb j := by
    funext a; apply Fin.ext
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 2000 + 1 * (j 0).val = win0_4.index t (0 : Fin 2) * 2000 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb (ix2 (n0 := 2000) (j 0) (0 : Fin 1))
      = ix2 (n0 := 50000) ((((cfg0.win 4).blk t).view.emb j) 0) (0 : Fin 1) := by
    funext a; apply Fin.ext
    match a with
    | ⟨0, _⟩ => show win0_2.index t (0 : Fin 2) * 2000 + 1 * (j 0).val = win0_4.index t (0 : Fin 2) * 2000 + 1 * (j 0).val; omega
    | ⟨1, _⟩ => show win0_2.index t (1 : Fin 2) * 1 + 1 * 0 = 0; omega
  exact tmp_point0 (iblk0 V c 0 t) (iblk0 V c 1 t) (iblk0 V c 2 t)
    (V c main_arg0) (V c main_v16) (V c main_v6) j (((cfg0.win 4).blk t).view.emb j)
    (congrArg (V c main_arg0) h0) (congrArg (V c main_v16) h1) (congrArg (V c main_v6) h2)

/-- A position of the array is in point t's block of window 4 iff each coordinate is in the block's range on its axis. -/
theorem mem_blk0_4 (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v17_0).slice (win0_4.rect t)).set ↔ _
  rw [View.set_slice_whole, Rect.mem_set_unit]
  exact Iff.rfl

/-- Every position of the array is in some point's block: row r is in block r / 2000. -/
theorem cover0_4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_4 _, ?_⟩
  obtain ⟨e00, e01, e10, e11, e20, e21, e30, e31, e40, e41, e50, e51⟩ := idx0 ⟨(i 0).val / 2000, by rw [hN]; omega⟩
  rw [mem_blk0_4]
  intro a
  match a with
  | ⟨0, _⟩ =>
    show win0_4.index _ (0 : Fin 2) * 2000 ≤ (i 0).val ∧ (i 0).val < win0_4.index _ (0 : Fin 2) * 2000 + 2000
    rw [e40]
    show (i 0).val / 2000 * 2000 ≤ (i 0).val ∧ (i 0).val < (i 0).val / 2000 * 2000 + 2000
    omega
  | ⟨1, _⟩ =>
    show win0_4.index _ (1 : Fin 2) * 128 ≤ (i 1).val ∧ (i 1).val < win0_4.index _ (1 : Fin 2) * 128 + 128
    rw [e41]
    omega

/-- What point t writes back to output window 5's array is block t of the layer's running output. -/
theorem flushed0_5_eq (c : Dev nD) (t : Fin cfg0.N) :
    (dat0 (F := Ideal) V c).flushed 5 t = ((cfg0.win 5).blk t).view.read (Elt Ideal) (Cert.Sage.stepRes (V c main_arg0) (Cert.Sage.stepTmp (V c main_arg0) (V c main_v16) (V c main_v6)) ((1 / 1 : ℝ) : EReal)) := by
  show (cfg0.win 5).cut (grid0.coords t) ((dat0 (F := Ideal) V c).after 5 t) = _
  rw [after0_5]
  unfold out0_5
  rw [View.canon_unit_zero zero_offsets]
  simp only [View.ld_unit_zero (S := S2000x128) zero_offsets, View.ld_unit_zero (S := S2000x1) zero_offsets]
  obtain ⟨e00, e01, e10, e11, e20, e21, e30, e31, e40, e41, e50, e51⟩ := idx0 t
  funext j
  have h0 : ((cfg0.win 0).blk t).view.emb j = ((cfg0.win 5).blk t).view.emb j := by
    funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * (j 1).val = win0_5.index t (1 : Fin 2) * 128 + 1 * (j 1).val; omega
  have h1 : ((cfg0.win 1).blk t).view.emb j = ((cfg0.win 5).blk t).view.emb j := by
    funext a; apply Fin.ext
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * (j 1).val = win0_5.index t (1 : Fin 2) * 128 + 1 * (j 1).val; omega
  have h2 : ((cfg0.win 2).blk t).view.emb (ix2 (n0 := 2000) (j 0) (0 : Fin 1))
      = ix2 (n0 := 50000) ((((cfg0.win 5).blk t).view.emb j) 0) (0 : Fin 1) := by
    funext a; apply Fin.ext
    match a with
    | ⟨0, _⟩ => show win0_2.index t (0 : Fin 2) * 2000 + 1 * (j 0).val = win0_5.index t (0 : Fin 2) * 2000 + 1 * (j 0).val; omega
    | ⟨1, _⟩ => show win0_2.index t (1 : Fin 2) * 1 + 1 * 0 = 0; omega
  have h3 : ((cfg0.win 3).blk t).view.emb j = ((cfg0.win 5).blk t).view.emb j := by
    funext a; apply Fin.ext
    match a with
    | ⟨0, _⟩ => show win0_3.index t (0 : Fin 2) * 2000 + 1 * (j 0).val = win0_5.index t (0 : Fin 2) * 2000 + 1 * (j 0).val; omega
    | ⟨1, _⟩ => show win0_3.index t (1 : Fin 2) * 128 + 1 * (j 1).val = win0_5.index t (1 : Fin 2) * 128 + 1 * (j 1).val; omega
  exact res_point0 (iblk0 V c 0 t) (iblk0 V c 1 t) (iblk0 V c 3 t) (iblk0 V c 2 t)
    (V c main_arg0) (V c main_v16) (V c main_arg0) (V c main_v6) j (((cfg0.win 5).blk t).view.emb j)
    (congrArg (V c main_arg0) h0) (congrArg (V c main_v16) h1) (congrArg (V c main_v6) h2) (congrArg (V c main_arg0) h3)

/-- A position of the array is in point t's block of window 5 iff each coordinate is in the block's range on its axis. -/
theorem mem_blk0_5 (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v17_1).slice (win0_5.rect t)).set ↔ _
  rw [View.set_slice_whole, Rect.mem_set_unit]
  exact Iff.rfl

/-- Every position of the array is in some point's block: row r is in block r / 2000. -/
theorem cover0_5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_5 _, ?_⟩
  obtain ⟨e00, e01, e10, e11, e20, e21, e30, e31, e40, e41, e50, e51⟩ := idx0 ⟨(i 0).val / 2000, by rw [hN]; omega⟩
  rw [mem_blk0_5]
  intro a
  match a with
  | ⟨0, _⟩ =>
    show win0_5.index _ (0 : Fin 2) * 2000 ≤ (i 0).val ∧ (i 0).val < win0_5.index _ (0 : Fin 2) * 2000 + 2000
    rw [e50]
    show (i 0).val / 2000 * 2000 ≤ (i 0).val ∧ (i 0).val < (i 0).val / 2000 * 2000 + 2000
    omega
  | ⟨1, _⟩ =>
    show win0_5.index _ (1 : Fin 2) * 128 ≤ (i 1).val ∧ (i 1).val < win0_5.index _ (1 : Fin 2) * 128 + 128
    rw [e51]
    omega

/-- After region 0 the new-features array is the layer's new features of the arrays the region found. -/
theorem arrAt0_4 (c : Dev nD) :
    (dat0 (F := Ideal) V c).arrAt 4 cfg0.N = Cert.Sage.stepTmp (V c main_arg0) (V c main_v16) (V c main_v6) :=
  (dat0 (F := Ideal) V c).arrAt_eq_of_cover 4 (Cert.Sage.stepTmp (V c main_arg0) (V c main_v16) (V c main_v6))
    (fun t _ => flushed0_4_eq V c t) (cover0_4)

/-- After region 0 the running-output array is the layer's running output of the arrays the region found. -/
theorem arrAt0_5 (c : Dev nD) :
    (dat0 (F := Ideal) V c).arrAt 5 cfg0.N
      = Cert.Sage.stepRes (V c main_arg0) (Cert.Sage.stepTmp (V c main_arg0) (V c main_v16) (V c main_v6)) ((1 / 1 : ℝ) : EReal) :=
  (dat0 (F := Ideal) V c).arrAt_eq_of_cover 5
    (Cert.Sage.stepRes (V c main_arg0) (Cert.Sage.stepTmp (V c main_arg0) (V c main_v16) (V c main_v6)) ((1 / 1 : ℝ) : EReal))
    (fun t _ => flushed0_5_eq V c t) (cover0_5)

/-! ## Region 1 -/

/-- The new features at row p and position q of a block: the feature plus the neighbour sum over the row's degree. -/
theorem pay1_1_apply (v0 : FVec Ideal S2000x1 .f32) (v2 v6 : FVec Ideal S2000x128 .f32) (p : Fin 2000) (q : Fin 128) :
    k1_pay1 (F := Ideal) v0 v2 v6 (ix2 p q) = v6 (ix2 p q) + Ideal.div (v2 (ix2 p q)) (v0 (ix2 p (0 : Fin 1))) := by
  unfold k1_pay1
  simp only [shapeCast_self]
  show v6 (ix2 p q) + Ideal.div (v2 (ix2 p q)) (broadcastTo S2000x128 v0 broadcasts_S2000x1_S2000x128 (ix2 p q)) = _
  rw [col_repeat]

/-- The running output there: the previous running output plus the new features times the layer's factor. -/
theorem pay2_1_apply (v0 : FVec Ideal S2000x1 .f32) (v2 v6 v9 : FVec Ideal S2000x128 .f32) (p : Fin 2000) (q : Fin 128) :
    k1_pay2 (F := Ideal) v0 v2 v6 v9 (ix2 p q)
      = v9 (ix2 p q) + (v6 (ix2 p q) + Ideal.div (v2 (ix2 p q)) (v0 (ix2 p (0 : Fin 1)))) * ((1 / 2 : ℝ) : EReal) := by
  unfold k1_pay2
  simp only [shapeCast_self]
  show v9 (ix2 p q) + k1_pay1 (F := Ideal) v0 v2 v6 (ix2 p q) * _ = _
  rw [pay1_1_apply]
  exact congrArg (fun z => v9 (ix2 p q) + (v6 (ix2 p q) + Ideal.div (v2 (ix2 p q)) (v0 (ix2 p (0 : Fin 1)))) * z) Cert.Sage.Consts.ofBits_half

/-- At a position j of a block whose inputs are the arrays A, B, D read at the array position i (the degree at i's
    row), the body's first result is the layer's new features at i. -/
theorem tmp_point1 (x0 x1 : FVec Ideal S2000x128 .f32) (x2 : FVec Ideal S2000x1 .f32)
    (A B : FVec Ideal Cert.Sage.SN .f32) (D : FVec Ideal Cert.Sage.SD .f32) (j : S2000x128.Idx) (i : Cert.Sage.SN.Idx)
    (h0 : x0 j = A i) (h1 : x1 j = B i)
    (h2 : x2 (ix2 (n0 := 2000) (j 0) (0 : Fin 1)) = D (ix2 (n0 := 50000) (i 0) (0 : Fin 1))) :
    k1_pay1 (F := Ideal) x2 x1 x0 j = Cert.Sage.stepTmp A B D i := by
  obtain ⟨p, q, rfl⟩ : ∃ (p : Fin 2000) (q : Fin 128), j = ix2 p q := ⟨j 0, j 1, eq_ix2 j⟩
  rw [pay1_1_apply]
  show _ = A i + Ideal.div (B i) (D (ix2 (n0 := 50000) (i 0) (0 : Fin 1)))
  rw [← h0, ← h1, ← h2]

/-- And with the running output R read at i too, the body's second result is the layer's running output at i. -/
theorem res_point1 (x0 x1 x3 : FVec Ideal S2000x128 .f32) (x2 : FVec Ideal S2000x1 .f32)
    (A B R : FVec Ideal Cert.Sage.SN .f32) (D : FVec Ideal Cert.Sage.SD .f32) (j : S2000x128.Idx) (i : Cert.Sage.SN.Idx)
    (h0 : x0 j = A i) (h1 : x1 j = B i)
    (h2 : x2 (ix2 (n0 := 2000) (j 0) (0 : Fin 1)) = D (ix2 (n0 := 50000) (i 0) (0 : Fin 1))) (h3 : x3 j = R i) :
    k1_pay2 (F := Ideal) x2 x1 x0 x3 j
      = Cert.Sage.stepRes R (Cert.Sage.stepTmp A B D) ((1 / 2 : ℝ) : EReal) i := by
  obtain ⟨p, q, rfl⟩ : ∃ (p : Fin 2000) (q : Fin 128), j = ix2 p q := ⟨j 0, j 1, eq_ix2 j⟩
  rw [pay2_1_apply]
  show _ = R i + (A i + Ideal.div (B i) (D (ix2 (n0 := 50000) (i 0) (0 : Fin 1)))) * _
  rw [← h0, ← h1, ← h2, ← h3]

/-- The printed index maps, decided over the 25 points: every window's block at point t is block row t, block column 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What point t writes back to output window 4's array is block t of the layer's new features. -/
theorem flushed1_4_eq (c : Dev nD) (t : Fin cfg1.N) :
    (dat1 (F := Ideal) V c).flushed 4 t = ((cfg1.win 4).blk t).view.read (Elt Ideal) (Cert.Sage.stepTmp (V c main_v17_0) (V c main_v27) (V c main_v6)) := by
  show (cfg1.win 4).cut (grid1.coords t) ((dat1 (F := Ideal) V c).after 4 t) = _
  rw [after1_4]
  unfold out1_4
  rw [View.canon_unit_zero zero_offsets]
  simp only [View.ld_unit_zero (S := S2000x128) zero_offsets, View.ld_unit_zero (S := S2000x1) zero_offsets]
  obtain ⟨e00, e01, e10, e11, e20, e21, e30, e31, e40, e41, e50, e51⟩ := idx1 t
  funext j
  have h0 : ((cfg1.win 0).blk t).view.emb j = ((cfg1.win 4).blk t).view.emb j := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb (ix2 (n0 := 2000) (j 0) (0 : Fin 1))
      = ix2 (n0 := 50000) ((((cfg1.win 4).blk t).view.emb j) 0) (0 : Fin 1) := by
    funext a; apply Fin.ext
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 1 + 1 * 0 = 0; omega
  exact tmp_point1 (iblk1 V c 0 t) (iblk1 V c 1 t) (iblk1 V c 2 t)
    (V c main_v17_0) (V c main_v27) (V c main_v6) j (((cfg1.win 4).blk t).view.emb j)
    (congrArg (V c main_v17_0) h0) (congrArg (V c main_v27) h1) (congrArg (V c main_v6) h2)

/-- A position of the array is in point t's block of window 4 iff each coordinate is in the block's range on its axis. -/
theorem mem_blk1_4 (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v28_0).slice (win1_4.rect t)).set ↔ _
  rw [View.set_slice_whole, Rect.mem_set_unit]
  exact Iff.rfl

/-- Every position of the array is in some point's block: row r is in block r / 2000. -/
theorem cover1_4 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_4 _, ?_⟩
  obtain ⟨e00, e01, e10, e11, e20, e21, e30, e31, e40, e41, e50, e51⟩ := idx1 ⟨(i 0).val / 2000, by rw [hN]; omega⟩
  rw [mem_blk1_4]
  intro a
  match a with
  | ⟨0, _⟩ =>
    show win1_4.index _ (0 : Fin 2) * 2000 ≤ (i 0).val ∧ (i 0).val < win1_4.index _ (0 : Fin 2) * 2000 + 2000
    rw [e40]
    show (i 0).val / 2000 * 2000 ≤ (i 0).val ∧ (i 0).val < (i 0).val / 2000 * 2000 + 2000
    omega
  | ⟨1, _⟩ =>
    show win1_4.index _ (1 : Fin 2) * 128 ≤ (i 1).val ∧ (i 1).val < win1_4.index _ (1 : Fin 2) * 128 + 128
    rw [e41]
    omega

/-- What point t writes back to output window 5's array is block t of the layer's running output. -/
theorem flushed1_5_eq (c : Dev nD) (t : Fin cfg1.N) :
    (dat1 (F := Ideal) V c).flushed 5 t = ((cfg1.win 5).blk t).view.read (Elt Ideal) (Cert.Sage.stepRes (V c main_v17_1) (Cert.Sage.stepTmp (V c main_v17_0) (V c main_v27) (V c main_v6)) ((1 / 2 : ℝ) : EReal)) := by
  show (cfg1.win 5).cut (grid1.coords t) ((dat1 (F := Ideal) V c).after 5 t) = _
  rw [after1_5]
  unfold out1_5
  rw [View.canon_unit_zero zero_offsets]
  simp only [View.ld_unit_zero (S := S2000x128) zero_offsets, View.ld_unit_zero (S := S2000x1) zero_offsets]
  obtain ⟨e00, e01, e10, e11, e20, e21, e30, e31, e40, e41, e50, e51⟩ := idx1 t
  funext j
  have h0 : ((cfg1.win 0).blk t).view.emb j = ((cfg1.win 5).blk t).view.emb j := by
    funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * (j 1).val = win1_5.index t (1 : Fin 2) * 128 + 1 * (j 1).val; omega
  have h1 : ((cfg1.win 1).blk t).view.emb j = ((cfg1.win 5).blk t).view.emb j := by
    funext a; apply Fin.ext
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * (j 1).val = win1_5.index t (1 : Fin 2) * 128 + 1 * (j 1).val; omega
  have h2 : ((cfg1.win 2).blk t).view.emb (ix2 (n0 := 2000) (j 0) (0 : Fin 1))
      = ix2 (n0 := 50000) ((((cfg1.win 5).blk t).view.emb j) 0) (0 : Fin 1) := by
    funext a; apply Fin.ext
    match a with
    | ⟨0, _⟩ => show win1_2.index t (0 : Fin 2) * 2000 + 1 * (j 0).val = win1_5.index t (0 : Fin 2) * 2000 + 1 * (j 0).val; omega
    | ⟨1, _⟩ => show win1_2.index t (1 : Fin 2) * 1 + 1 * 0 = 0; omega
  have h3 : ((cfg1.win 3).blk t).view.emb j = ((cfg1.win 5).blk t).view.emb j := by
    funext a; apply Fin.ext
    match a with
    | ⟨0, _⟩ => show win1_3.index t (0 : Fin 2) * 2000 + 1 * (j 0).val = win1_5.index t (0 : Fin 2) * 2000 + 1 * (j 0).val; omega
    | ⟨1, _⟩ => show win1_3.index t (1 : Fin 2) * 128 + 1 * (j 1).val = win1_5.index t (1 : Fin 2) * 128 + 1 * (j 1).val; omega
  exact res_point1 (iblk1 V c 0 t) (iblk1 V c 1 t) (iblk1 V c 3 t) (iblk1 V c 2 t)
    (V c main_v17_0) (V c main_v27) (V c main_v17_1) (V c main_v6) j (((cfg1.win 5).blk t).view.emb j)
    (congrArg (V c main_v17_0) h0) (congrArg (V c main_v27) h1) (congrArg (V c main_v6) h2) (congrArg (V c main_v17_1) h3)

/-- A position of the array is in point t's block of window 5 iff each coordinate is in the block's range on its axis. -/
theorem mem_blk1_5 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v28_1).slice (win1_5.rect t)).set ↔ _
  rw [View.set_slice_whole, Rect.mem_set_unit]
  exact Iff.rfl

/-- Every position of the array is in some point's block: row r is in block r / 2000. -/
theorem cover1_5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_5 _, ?_⟩
  obtain ⟨e00, e01, e10, e11, e20, e21, e30, e31, e40, e41, e50, e51⟩ := idx1 ⟨(i 0).val / 2000, by rw [hN]; omega⟩
  rw [mem_blk1_5]
  intro a
  match a with
  | ⟨0, _⟩ =>
    show win1_5.index _ (0 : Fin 2) * 2000 ≤ (i 0).val ∧ (i 0).val < win1_5.index _ (0 : Fin 2) * 2000 + 2000
    rw [e50]
    show (i 0).val / 2000 * 2000 ≤ (i 0).val ∧ (i 0).val < (i 0).val / 2000 * 2000 + 2000
    omega
  | ⟨1, _⟩ =>
    show win1_5.index _ (1 : Fin 2) * 128 ≤ (i 1).val ∧ (i 1).val < win1_5.index _ (1 : Fin 2) * 128 + 128
    rw [e51]
    omega

/-- After region 1 the new-features array is the layer's new features of the arrays the region found. -/
theorem arrAt1_4 (c : Dev nD) :
    (dat1 (F := Ideal) V c).arrAt 4 cfg1.N = Cert.Sage.stepTmp (V c main_v17_0) (V c main_v27) (V c main_v6) :=
  (dat1 (F := Ideal) V c).arrAt_eq_of_cover 4 (Cert.Sage.stepTmp (V c main_v17_0) (V c main_v27) (V c main_v6))
    (fun t _ => flushed1_4_eq V c t) (cover1_4)

/-- After region 1 the running-output array is the layer's running output of the arrays the region found. -/
theorem arrAt1_5 (c : Dev nD) :
    (dat1 (F := Ideal) V c).arrAt 5 cfg1.N
      = Cert.Sage.stepRes (V c main_v17_1) (Cert.Sage.stepTmp (V c main_v17_0) (V c main_v27) (V c main_v6)) ((1 / 2 : ℝ) : EReal) :=
  (dat1 (F := Ideal) V c).arrAt_eq_of_cover 5
    (Cert.Sage.stepRes (V c main_v17_1) (Cert.Sage.stepTmp (V c main_v17_0) (V c main_v27) (V c main_v6)) ((1 / 2 : ℝ) : EReal))
    (fun t _ => flushed1_5_eq V c t) (cover1_5)

/-- The third region's factor is a named constant: the table gives it the value 1/3. -/
theorem inv_3 : Named.named (F := Ideal) κ "inv_3" (φ := .f32) 0x3EAAAAAB#32 = ((1 / 3 : ℝ) : EReal) :=
  IdealRules.named_const.ideal_named_scalar _ _ _ _ rfl

/-! ## Region 2 -/

/-- The new features at row p and position q of a block: the feature plus the neighbour sum over the row's degree. -/
theorem pay1_2_apply (v0 : FVec Ideal S2000x1 .f32) (v2 v6 : FVec Ideal S2000x128 .f32) (p : Fin 2000) (q : Fin 128) :
    k2_pay1 (F := Ideal) v0 v2 v6 (ix2 p q) = v6 (ix2 p q) + Ideal.div (v2 (ix2 p q)) (v0 (ix2 p (0 : Fin 1))) := by
  unfold k2_pay1
  simp only [shapeCast_self]
  show v6 (ix2 p q) + Ideal.div (v2 (ix2 p q)) (broadcastTo S2000x128 v0 broadcasts_S2000x1_S2000x128 (ix2 p q)) = _
  rw [col_repeat]

/-- The running output there: the previous running output plus the new features times the layer's factor. -/
theorem pay2_2_apply (v0 : FVec Ideal S2000x1 .f32) (v2 v6 v9 : FVec Ideal S2000x128 .f32) (p : Fin 2000) (q : Fin 128) :
    k2_pay2 (F := Ideal) v0 v2 v6 v9 (ix2 p q)
      = v9 (ix2 p q) + (v6 (ix2 p q) + Ideal.div (v2 (ix2 p q)) (v0 (ix2 p (0 : Fin 1)))) * ((1 / 3 : ℝ) : EReal) := by
  unfold k2_pay2
  simp only [shapeCast_self]
  show v9 (ix2 p q) + k2_pay1 (F := Ideal) v0 v2 v6 (ix2 p q) * _ = _
  rw [pay1_2_apply]
  exact congrArg (fun z => v9 (ix2 p q) + (v6 (ix2 p q) + Ideal.div (v2 (ix2 p q)) (v0 (ix2 p (0 : Fin 1)))) * z) inv_3

/-- At a position j of a block whose inputs are the arrays A, B, D read at the array position i (the degree at i's
    row), the body's first result is the layer's new features at i. -/
theorem tmp_point2 (x0 x1 : FVec Ideal S2000x128 .f32) (x2 : FVec Ideal S2000x1 .f32)
    (A B : FVec Ideal Cert.Sage.SN .f32) (D : FVec Ideal Cert.Sage.SD .f32) (j : S2000x128.Idx) (i : Cert.Sage.SN.Idx)
    (h0 : x0 j = A i) (h1 : x1 j = B i)
    (h2 : x2 (ix2 (n0 := 2000) (j 0) (0 : Fin 1)) = D (ix2 (n0 := 50000) (i 0) (0 : Fin 1))) :
    k2_pay1 (F := Ideal) x2 x1 x0 j = Cert.Sage.stepTmp A B D i := by
  obtain ⟨p, q, rfl⟩ : ∃ (p : Fin 2000) (q : Fin 128), j = ix2 p q := ⟨j 0, j 1, eq_ix2 j⟩
  rw [pay1_2_apply]
  show _ = A i + Ideal.div (B i) (D (ix2 (n0 := 50000) (i 0) (0 : Fin 1)))
  rw [← h0, ← h1, ← h2]

/-- And with the running output R read at i too, the body's second result is the layer's running output at i. -/
theorem res_point2 (x0 x1 x3 : FVec Ideal S2000x128 .f32) (x2 : FVec Ideal S2000x1 .f32)
    (A B R : FVec Ideal Cert.Sage.SN .f32) (D : FVec Ideal Cert.Sage.SD .f32) (j : S2000x128.Idx) (i : Cert.Sage.SN.Idx)
    (h0 : x0 j = A i) (h1 : x1 j = B i)
    (h2 : x2 (ix2 (n0 := 2000) (j 0) (0 : Fin 1)) = D (ix2 (n0 := 50000) (i 0) (0 : Fin 1))) (h3 : x3 j = R i) :
    k2_pay2 (F := Ideal) x2 x1 x0 x3 j
      = Cert.Sage.stepRes R (Cert.Sage.stepTmp A B D) ((1 / 3 : ℝ) : EReal) i := by
  obtain ⟨p, q, rfl⟩ : ∃ (p : Fin 2000) (q : Fin 128), j = ix2 p q := ⟨j 0, j 1, eq_ix2 j⟩
  rw [pay2_2_apply]
  show _ = R i + (A i + Ideal.div (B i) (D (ix2 (n0 := 50000) (i 0) (0 : Fin 1)))) * _
  rw [← h0, ← h1, ← h2, ← h3]

/-- The printed index maps, decided over the 25 points: every window's block at point t is block row t, block column 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- What point t writes back to output window 4's array is block t of the layer's new features. -/
theorem flushed2_4_eq (c : Dev nD) (t : Fin cfg2.N) :
    (dat2 (F := Ideal) V c).flushed 4 t = ((cfg2.win 4).blk t).view.read (Elt Ideal) (Cert.Sage.stepTmp (V c main_v28_0) (V c main_v38) (V c main_v6)) := by
  show (cfg2.win 4).cut (grid2.coords t) ((dat2 (F := Ideal) V c).after 4 t) = _
  rw [after2_4]
  unfold out2_4
  rw [View.canon_unit_zero zero_offsets]
  simp only [View.ld_unit_zero (S := S2000x128) zero_offsets, View.ld_unit_zero (S := S2000x1) zero_offsets]
  obtain ⟨e00, e01, e10, e11, e20, e21, e30, e31, e40, e41, e50, e51⟩ := idx2 t
  funext j
  have h0 : ((cfg2.win 0).blk t).view.emb j = ((cfg2.win 4).blk t).view.emb j := by
    funext a; apply Fin.ext
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 128 + 1 * (j 1).val = win2_4.index t (1 : Fin 2) * 128 + 1 * (j 1).val; omega
  have h1 : ((cfg2.win 1).blk t).view.emb j = ((cfg2.win 4).blk t).view.emb j := by
    funext a; apply Fin.ext
    match a with
    | ⟨0, _⟩ => show win2_1.index t (0 : Fin 2) * 2000 + 1 * (j 0).val = win2_4.index t (0 : Fin 2) * 2000 + 1 * (j 0).val; omega
    | ⟨1, _⟩ => show win2_1.index t (1 : Fin 2) * 128 + 1 * (j 1).val = win2_4.index t (1 : Fin 2) * 128 + 1 * (j 1).val; omega
  have h2 : ((cfg2.win 2).blk t).view.emb (ix2 (n0 := 2000) (j 0) (0 : Fin 1))
      = ix2 (n0 := 50000) ((((cfg2.win 4).blk t).view.emb j) 0) (0 : Fin 1) := by
    funext a; apply Fin.ext
    match a with
    | ⟨0, _⟩ => show win2_2.index t (0 : Fin 2) * 2000 + 1 * (j 0).val = win2_4.index t (0 : Fin 2) * 2000 + 1 * (j 0).val; omega
    | ⟨1, _⟩ => show win2_2.index t (1 : Fin 2) * 1 + 1 * 0 = 0; omega
  exact tmp_point2 (iblk2 V c 0 t) (iblk2 V c 1 t) (iblk2 V c 2 t)
    (V c main_v28_0) (V c main_v38) (V c main_v6) j (((cfg2.win 4).blk t).view.emb j)
    (congrArg (V c main_v28_0) h0) (congrArg (V c main_v38) h1) (congrArg (V c main_v6) h2)

/-- A position of the array is in point t's block of window 4 iff each coordinate is in the block's range on its axis. -/
theorem mem_blk2_4 (t : Fin cfg2.N) (i : S50000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v39_0).slice (win2_4.rect t)).set ↔ _
  rw [View.set_slice_whole, Rect.mem_set_unit]
  exact Iff.rfl

/-- Every position of the array is in some point's block: row r is in block r / 2000. -/
theorem cover2_4 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_4 _, ?_⟩
  obtain ⟨e00, e01, e10, e11, e20, e21, e30, e31, e40, e41, e50, e51⟩ := idx2 ⟨(i 0).val / 2000, by rw [hN]; omega⟩
  rw [mem_blk2_4]
  intro a
  match a with
  | ⟨0, _⟩ =>
    show win2_4.index _ (0 : Fin 2) * 2000 ≤ (i 0).val ∧ (i 0).val < win2_4.index _ (0 : Fin 2) * 2000 + 2000
    rw [e40]
    show (i 0).val / 2000 * 2000 ≤ (i 0).val ∧ (i 0).val < (i 0).val / 2000 * 2000 + 2000
    omega
  | ⟨1, _⟩ =>
    show win2_4.index _ (1 : Fin 2) * 128 ≤ (i 1).val ∧ (i 1).val < win2_4.index _ (1 : Fin 2) * 128 + 128
    rw [e41]
    omega

/-- What point t writes back to output window 5's array is block t of the layer's running output. -/
theorem flushed2_5_eq (c : Dev nD) (t : Fin cfg2.N) :
    (dat2 (F := Ideal) V c).flushed 5 t = ((cfg2.win 5).blk t).view.read (Elt Ideal) (Cert.Sage.stepRes (V c main_v28_1) (Cert.Sage.stepTmp (V c main_v28_0) (V c main_v38) (V c main_v6)) ((1 / 3 : ℝ) : EReal)) := by
  show (cfg2.win 5).cut (grid2.coords t) ((dat2 (F := Ideal) V c).after 5 t) = _
  rw [after2_5]
  unfold out2_5
  rw [View.canon_unit_zero zero_offsets]
  simp only [View.ld_unit_zero (S := S2000x128) zero_offsets, View.ld_unit_zero (S := S2000x1) zero_offsets]
  obtain ⟨e00, e01, e10, e11, e20, e21, e30, e31, e40, e41, e50, e51⟩ := idx2 t
  funext j
  have h0 : ((cfg2.win 0).blk t).view.emb j = ((cfg2.win 5).blk t).view.emb j := by
    funext a; apply Fin.ext
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 128 + 1 * (j 1).val = win2_5.index t (1 : Fin 2) * 128 + 1 * (j 1).val; omega
  have h1 : ((cfg2.win 1).blk t).view.emb j = ((cfg2.win 5).blk t).view.emb j := by
    funext a; apply Fin.ext
    match a with
    | ⟨0, _⟩ => show win2_1.index t (0 : Fin 2) * 2000 + 1 * (j 0).val = win2_5.index t (0 : Fin 2) * 2000 + 1 * (j 0).val; omega
    | ⟨1, _⟩ => show win2_1.index t (1 : Fin 2) * 128 + 1 * (j 1).val = win2_5.index t (1 : Fin 2) * 128 + 1 * (j 1).val; omega
  have h2 : ((cfg2.win 2).blk t).view.emb (ix2 (n0 := 2000) (j 0) (0 : Fin 1))
      = ix2 (n0 := 50000) ((((cfg2.win 5).blk t).view.emb j) 0) (0 : Fin 1) := by
    funext a; apply Fin.ext
    match a with
    | ⟨0, _⟩ => show win2_2.index t (0 : Fin 2) * 2000 + 1 * (j 0).val = win2_5.index t (0 : Fin 2) * 2000 + 1 * (j 0).val; omega
    | ⟨1, _⟩ => show win2_2.index t (1 : Fin 2) * 1 + 1 * 0 = 0; omega
  have h3 : ((cfg2.win 3).blk t).view.emb j = ((cfg2.win 5).blk t).view.emb j := by
    funext a; apply Fin.ext
    match a with
    | ⟨0, _⟩ => show win2_3.index t (0 : Fin 2) * 2000 + 1 * (j 0).val = win2_5.index t (0 : Fin 2) * 2000 + 1 * (j 0).val; omega
    | ⟨1, _⟩ => show win2_3.index t (1 : Fin 2) * 128 + 1 * (j 1).val = win2_5.index t (1 : Fin 2) * 128 + 1 * (j 1).val; omega
  exact res_point2 (iblk2 V c 0 t) (iblk2 V c 1 t) (iblk2 V c 3 t) (iblk2 V c 2 t)
    (V c main_v28_0) (V c main_v38) (V c main_v28_1) (V c main_v6) j (((cfg2.win 5).blk t).view.emb j)
    (congrArg (V c main_v28_0) h0) (congrArg (V c main_v38) h1) (congrArg (V c main_v6) h2) (congrArg (V c main_v28_1) h3)

/-- A position of the array is in point t's block of window 5 iff each coordinate is in the block's range on its axis. -/
theorem mem_blk2_5 (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v39_1).slice (win2_5.rect t)).set ↔ _
  rw [View.set_slice_whole, Rect.mem_set_unit]
  exact Iff.rfl

/-- Every position of the array is in some point's block: row r is in block r / 2000. -/
theorem cover2_5 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_5 _, ?_⟩
  obtain ⟨e00, e01, e10, e11, e20, e21, e30, e31, e40, e41, e50, e51⟩ := idx2 ⟨(i 0).val / 2000, by rw [hN]; omega⟩
  rw [mem_blk2_5]
  intro a
  match a with
  | ⟨0, _⟩ =>
    show win2_5.index _ (0 : Fin 2) * 2000 ≤ (i 0).val ∧ (i 0).val < win2_5.index _ (0 : Fin 2) * 2000 + 2000
    rw [e50]
    show (i 0).val / 2000 * 2000 ≤ (i 0).val ∧ (i 0).val < (i 0).val / 2000 * 2000 + 2000
    omega
  | ⟨1, _⟩ =>
    show win2_5.index _ (1 : Fin 2) * 128 ≤ (i 1).val ∧ (i 1).val < win2_5.index _ (1 : Fin 2) * 128 + 128
    rw [e51]
    omega

/-- After region 2 the new-features array is the layer's new features of the arrays the region found. -/
theorem arrAt2_4 (c : Dev nD) :
    (dat2 (F := Ideal) V c).arrAt 4 cfg2.N = Cert.Sage.stepTmp (V c main_v28_0) (V c main_v38) (V c main_v6) :=
  (dat2 (F := Ideal) V c).arrAt_eq_of_cover 4 (Cert.Sage.stepTmp (V c main_v28_0) (V c main_v38) (V c main_v6))
    (fun t _ => flushed2_4_eq V c t) (cover2_4)

/-- After region 2 the running-output array is the layer's running output of the arrays the region found. -/
theorem arrAt2_5 (c : Dev nD) :
    (dat2 (F := Ideal) V c).arrAt 5 cfg2.N
      = Cert.Sage.stepRes (V c main_v28_1) (Cert.Sage.stepTmp (V c main_v28_0) (V c main_v38) (V c main_v6)) ((1 / 3 : ℝ) : EReal) :=
  (dat2 (F := Ideal) V c).arrAt_eq_of_cover 5
    (Cert.Sage.stepRes (V c main_v28_1) (Cert.Sage.stepTmp (V c main_v28_0) (V c main_v38) (V c main_v6)) ((1 / 3 : ℝ) : EReal))
    (fun t _ => flushed2_5_eq V c t) (cover2_5)

end Cert.KernelIdeal.Fr

end
-- ==== Proof.KI.Host.lean ====
/-
  What the host stretches compute, over any contents of the buffers they read.

  Each of the three stretches normalises the source indices, gathers the rows of the current features by them and
  scatter-adds the gathered rows by destination: the neighbour sums `aggK`. The first stretch also counts each node's
  incoming edges, takes the maximum with one and lays the result out as a column: the degree column `degK`. Both are
  named here as functions of the buffers read and are never opened.
-/
import proofs.«162329_j42099269436028_1_alg».proof.Proof.Gen.KernelIdeal.Launch
import Idealize.ShloMosaic.Lib.StableHlo.Run

noncomputable section

namespace Cert.KernelIdeal.Fr

open Cert.KernelIdeal Cert.KernelIdeal.Gen
open Idealize.ShloMosaic Idealize.ShloMosaic.TcCoe Idealize.ShloMosaic.StableHlo Idealize.SL.Sem

/-- An edge-index vector: 800000 signed 32-bit words. -/
abbrev EV : Type := (⟨S800000, .i32⟩ : BufTy).Contents (Elt Ideal)

/-- The neighbour sums of features `x` over the edges `src → dst`: row `v` is the sum of the rows `x[src e]` over the
    edges `e` with `dst e = v`, spelt as the program's own operations. -/
def aggK (src dst : EV) (x : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32)))
          src)))

/-- Each node's degree, at least one: the count of edges arriving at it, or 1 if there is none. -/
def degVecK (dst : EV) : FVec Ideal S50000 .f32 :=
  maximumf (F := Ideal)
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S50000 ![] bcast_S_S50000 (constant (F := Ideal) S_ .f32 0x3F800000#32))

/-- The degrees laid out as a column of 50000 rows. -/
def degK (dst : EV) : FVec Ideal S50000x1 .f32 := shapeCast S50000x1 (degVecK dst) shapeCasts_S50000_S50000x1

variable (Wv : Valuation τ sig (Elt Ideal))

/-- After the first stretch the degree-column buffer holds `degK` of the destination indices. -/
theorem host0_v6 : StableHlo.after (hostOps0 (F := Ideal)) Wv (Proc.devRef .tc main_v6) = degK (Wv (Proc.devRef .tc main_arg2)) := by
  simp only [hostOps0]
  after_results
  unfold degK degVecK
  funext i
  dsimp only
  rfl

/-- After the first stretch the neighbour-sum buffer holds `aggK` of the input features. -/
theorem host0_v16 : StableHlo.after (hostOps0 (F := Ideal)) Wv (Proc.devRef .tc main_v16)
    = aggK (Wv (Proc.devRef .tc main_arg1)) (Wv (Proc.devRef .tc main_arg2)) (Wv (Proc.devRef .tc main_arg0)) := by
  simp only [hostOps0]
  after_results_simp
  rfl

/-- After the second stretch its neighbour-sum buffer holds `aggK` of the first layer's features. -/
theorem host1_v27 : StableHlo.after (hostOps1 (F := Ideal)) Wv (Proc.devRef .tc main_v27)
    = aggK (Wv (Proc.devRef .tc main_arg1)) (Wv (Proc.devRef .tc main_arg2)) (Wv (Proc.devRef .tc main_v17_0)) := by
  simp only [hostOps1]
  after_results
  rfl

/-- After the third stretch its neighbour-sum buffer holds `aggK` of the second layer's features. -/
theorem host2_v38 : StableHlo.after (hostOps2 (F := Ideal)) Wv (Proc.devRef .tc main_v38)
    = aggK (Wv (Proc.devRef .tc main_arg1)) (Wv (Proc.devRef .tc main_arg2)) (Wv (Proc.devRef .tc main_v28_0)) := by
  simp only [hostOps2]
  after_results
  rfl

end Cert.KernelIdeal.Fr

end
-- ==== Proof.RefValue.lean ====
/-
  The reference program's result, read through its generated run, is the three-layer network of the specification.

  The reference computes the degree of every node once, as the scatter-add of ones over the destination endpoints with a
  floor of one, and then three times the same chain: the source endpoints with a negative one counted from the end, the
  rows of the current features at those endpoints gathered, and the gathered rows scatter-added at the destination
  endpoints into a zero array. Both the chain and the degree column are kept here as the reference spells them; nothing
  below looks inside the gather or the scatter-add. What is read at an index is only the arithmetic around them: the
  row-wise quotient by the degree column, the sums, and the quotients by 1, 2 and 3.
-/
import proofs.«162329_j42099269436028_1_alg».proof.Proof.Gen.ReferenceIdeal.Read
import proofs.«162329_j42099269436028_1_alg».proof.Proof.Spec
import proofs.«162329_j42099269436028_1_alg».proof.Proof.Consts

noncomputable section

namespace Cert.Sage.Ref

open Cert.ReferenceIdeal Cert.ReferenceIdeal.Gen Idealize.ShloMosaic Idealize.ShloMosaic.TcCoe Idealize.SL.Sem
open Idealize.ShloMosaic.ValueIdx

/-- An array of edge endpoints: 800000 words of 32 bits. -/
abbrev EV : Type := (⟨S800000, .i32⟩ : BufTy).Contents (Elt Ideal)

/-- The reference's neighbour sum of the features x: the source endpoints, a negative one moved up by 50000, as a
    column; the rows of x at them; those rows added into a zero array at the destination endpoints. -/
def aggR (src dst : EV) (x : FVec Ideal Cert.Sage.SN .f32) : FVec Ideal Cert.Sage.SN .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32)))
          src)))

/-- The reference's degree column: ones added into a zero array at the destination endpoints, at least one, as a
    column of 50000 rows. -/
def degR (dst : EV) : FVec Ideal Cert.Sage.SD .f32 :=
  broadcastInDim S50000x1 ![0] bcast_S50000_S50000x1_0
    (maximumf (F := Ideal)
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      (broadcastInDim S50000 ![] bcast_S_S50000 (constant (F := Ideal) S_ .f32 0x3F800000#32)))

/-- A column repeated along the rows, read at row a and position b, is the column at row a. -/
theorem bcast_col (D : FVec Ideal Cert.Sage.SD .f32) (a : Fin 50000) (b : Fin 128) :
    broadcastInDim S50000x128 ![0, 1] bcast_S50000x1_S50000x128_0_1 D (ix2 a b) = D (ix2 a (0 : Fin 1)) :=
  broadcastInDim_apply _ bcast_S50000x1_S50000x128_0_1 D (ix2 a b) (ix2 a (0 : Fin 1)) (fun c => match c with
    | ⟨0, _⟩ => by show a.val = if (50000 : Nat) = 1 then 0 else a.val; rw [if_neg (by decide)]
    | ⟨1, _⟩ => by show 0 = if (1 : Nat) = 1 then 0 else b.val; rw [if_pos rfl])

/-- A number repeated over the whole array, read anywhere, is the number. -/
theorem bcast_const (w : BitVec FTy.f32.bits) (i : S50000x128.Idx) :
    broadcastInDim S50000x128 ![] bcast_S_S50000x128 (constant (F := Ideal) S_ .f32 w) i = Ideal.ofBits .f32 w :=
  broadcastInDim_apply _ bcast_S_S50000x128 (constant (F := Ideal) S_ .f32 w) i (fun a => a.elim0) (fun a => a.elim0)

/-- One layer's new features, as the reference computes them: the sum with the quotient by the repeated degree column. -/
theorem layer_tmp (x agg : FVec Ideal Cert.Sage.SN .f32) (D : FVec Ideal Cert.Sage.SD .f32) :
    addf x (Host.divf agg (broadcastInDim S50000x128 ![0, 1] bcast_S50000x1_S50000x128_0_1 D))
      = Cert.Sage.stepTmp x agg D := by
  funext i
  obtain ⟨a, b, rfl⟩ : ∃ a b, i = ix2 a b := ⟨i 0, i 1, eq_ix2 i⟩
  show x (ix2 a b) + Ideal.div (agg (ix2 a b))
    (broadcastInDim S50000x128 ![0, 1] bcast_S50000x1_S50000x128_0_1 D (ix2 a b)) = _
  rw [bcast_col, Cert.Sage.stepTmp_apply]

/-- The running output after the first layer: the quotient by 1 is the product with 1/1. -/
theorem layer_res_one (r t : FVec Ideal Cert.Sage.SN .f32) :
    addf r (Host.divf t (broadcastInDim S50000x128 ![] bcast_S_S50000x128 (constant (F := Ideal) S_ .f32 0x3F800000#32)))
      = Cert.Sage.stepRes r t ((1 / 1 : ℝ) : EReal) := by
  funext i
  show r i + Ideal.div (t i)
    (broadcastInDim S50000x128 ![] bcast_S_S50000x128 (constant (F := Ideal) S_ .f32 0x3F800000#32) i) = _
  rw [bcast_const, Cert.Sage.Consts.div_one, Cert.Sage.stepRes_apply]

/-- The running output after the second layer: the quotient by 2 is the product with 1/2. -/
theorem layer_res_two (r t : FVec Ideal Cert.Sage.SN .f32) :
    addf r (Host.divf t (broadcastInDim S50000x128 ![] bcast_S_S50000x128 (constant (F := Ideal) S_ .f32 0x40000000#32)))
      = Cert.Sage.stepRes r t ((1 / 2 : ℝ) : EReal) := by
  funext i
  show r i + Ideal.div (t i)
    (broadcastInDim S50000x128 ![] bcast_S_S50000x128 (constant (F := Ideal) S_ .f32 0x40000000#32) i) = _
  rw [bcast_const, Cert.Sage.Consts.div_two, Cert.Sage.stepRes_apply]

/-- The running output after the third layer: the quotient by 3 is the product with 1/3. -/
theorem layer_res_three (r t : FVec Ideal Cert.Sage.SN .f32) :
    addf r (Host.divf t (broadcastInDim S50000x128 ![] bcast_S_S50000x128 (constant (F := Ideal) S_ .f32 0x40400000#32)))
      = Cert.Sage.stepRes r t ((1 / 3 : ℝ) : EReal) := by
  funext i
  show r i + Ideal.div (t i)
    (broadcastInDim S50000x128 ![] bcast_S_S50000x128 (constant (F := Ideal) S_ .f32 0x40400000#32) i) = _
  rw [bcast_const, Cert.Sage.Consts.div_three, Cert.Sage.stepRes_apply]

/-! ## The reference's stages

Each stage of the reference is named by the generated reading of the program. The three neighbour sums are one chain on
three features, and the three degree columns one term: the equalities below hold by unfolding the names, the gather and
the scatter-add untouched. -/

/-- The first layer's new features. -/
theorem stage_t1 (h : FVec Ideal Cert.Sage.SN .f32) (src dst : EV) :
    Read.val_main_v19 (F := Ideal) h src dst = Cert.Sage.stepTmp h (aggR src dst h) (degR dst) :=
  layer_tmp h (aggR src dst h) (degR dst)

/-- The second layer's new features, from the first's. -/
theorem stage_t2 (h : FVec Ideal Cert.Sage.SN .f32) (src dst : EV) :
    Read.val_main_v36 (F := Ideal) h src dst
      = Cert.Sage.stepTmp (Read.val_main_v19 (F := Ideal) h src dst)
          (aggR src dst (Read.val_main_v19 (F := Ideal) h src dst)) (degR dst) :=
  layer_tmp (Read.val_main_v19 (F := Ideal) h src dst) (aggR src dst (Read.val_main_v19 (F := Ideal) h src dst)) (degR dst)

/-- The third layer's new features, from the second's. -/
theorem stage_t3 (h : FVec Ideal Cert.Sage.SN .f32) (src dst : EV) :
    Read.val_main_v53 (F := Ideal) h src dst
      = Cert.Sage.stepTmp (Read.val_main_v36 (F := Ideal) h src dst)
          (aggR src dst (Read.val_main_v36 (F := Ideal) h src dst)) (degR dst) :=
  layer_tmp (Read.val_main_v36 (F := Ideal) h src dst) (aggR src dst (Read.val_main_v36 (F := Ideal) h src dst)) (degR dst)

/-- The running output after the first layer. -/
theorem stage_r1 (h : FVec Ideal Cert.Sage.SN .f32) (src dst : EV) :
    Read.val_main_v22 (F := Ideal) h src dst
      = Cert.Sage.stepRes h (Read.val_main_v19 (F := Ideal) h src dst) ((1 / 1 : ℝ) : EReal) :=
  layer_res_one h (Read.val_main_v19 (F := Ideal) h src dst)

/-- The running output after the second layer. -/
theorem stage_r2 (h : FVec Ideal Cert.Sage.SN .f32) (src dst : EV) :
    Read.val_main_v39 (F := Ideal) h src dst
      = Cert.Sage.stepRes (Read.val_main_v22 (F := Ideal) h src dst) (Read.val_main_v36 (F := Ideal) h src dst)
          ((1 / 2 : ℝ) : EReal) :=
  layer_res_two (Read.val_main_v22 (F := Ideal) h src dst) (Read.val_main_v36 (F := Ideal) h src dst)

/-- The running output after the third layer: the reference's result. -/
theorem stage_r3 (h : FVec Ideal Cert.Sage.SN .f32) (src dst : EV) :
    Read.val_main_v56 (F := Ideal) h src dst
      = Cert.Sage.stepRes (Read.val_main_v39 (F := Ideal) h src dst) (Read.val_main_v53 (F := Ideal) h src dst)
          ((1 / 3 : ℝ) : EReal) :=
  layer_res_three (Read.val_main_v39 (F := Ideal) h src dst) (Read.val_main_v53 (F := Ideal) h src dst)

/-- The reference's result, as a function of its three arguments, is the three-layer network on the reference's own
    neighbour sum and degree column, with the factors 1/1, 1/2 and 1/3. -/
theorem ref_value (h : FVec Ideal Cert.Sage.SN .f32) (src dst : EV) :
    Read.val_main_v56 (F := Ideal) h src dst
      = Cert.Sage.sage3 (aggR src dst) (degR dst) ((1 / 1 : ℝ) : EReal) ((1 / 2 : ℝ) : EReal) ((1 / 3 : ℝ) : EReal) h := by
  rw [stage_r3, stage_r2, stage_r1, stage_t3, stage_t2, stage_t1]
  rfl

/-- Every weakly fair execution of the reference, from any memory with zero counters, terminates with its result buffer
    at the three-layer network of the three argument arrays, and the arguments unchanged. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      fun r => ∀ c : Dev nD,
        r.2.mem ((c.tc : Thread nD τ).loc main_v56)
          = Cert.Sage.sage3 (aggR (m ((c.tc : Thread nD τ).loc main_arg1)) (m ((c.tc : Thread nD τ).loc main_arg2)))
              (degR (m ((c.tc : Thread nD τ).loc main_arg2)))
              ((1 / 1 : ℝ) : EReal) ((1 / 2 : ℝ) : EReal) ((1 / 3 : ℝ) : EReal) (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run (Cert.ReferenceIdeal.defs (F := Ideal)) _ _).mono
    (fun _ hh c => ⟨(hh c).1.trans ((Read.val_main_v56_eq (F := Ideal) m c).trans (ref_value _ _ _)), (hh c).2⟩)
    (Cert.ReferenceIdeal.Value.run (F := Ideal) m ρ)

end Cert.Sage.Ref

end
-- ==== Proof.KI.Bridge.lean ====
/-
  The two programs' host chains are one and the same: the neighbour sums are the same operations on both sides, and the
  degree column is the same numbers laid out by a reshape on one side and by a broadcast along a new axis on the other.
-/
import proofs.«162329_j42099269436028_1_alg».proof.Proof.KI.Host
import proofs.«162329_j42099269436028_1_alg».proof.Proof.RefValue
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.ValueIdx

/-- The neighbour sums are spelt by the same operations in both programs. -/
theorem aggK_eq (src dst : EV) (x : FVec Ideal S50000x128 .f32) : aggK src dst x = Cert.Sage.Ref.aggR src dst x := rfl

/-- A vector laid out as a column by a reshape and the same vector broadcast along a new trailing unit axis agree:
    entry (a, 0) of either is the vector's entry a. -/
theorem col_eq (v : FVec Ideal S50000 .f32) (hb : S50000.BroadcastsInDim S50000x1 (![0] : Fin S50000.rank → Fin S50000x1.rank)) :
    shapeCast S50000x1 v shapeCasts_S50000_S50000x1 = broadcastInDim S50000x1 ![0] hb v := by
  funext j
  obtain ⟨a, b, rfl⟩ : ∃ (a : Fin 50000) (b : Fin 1), j = ix2 a b := ⟨j 0, j 1, eq_ix2 j⟩
  have hb0 : b = 0 := Subsingleton.elim _ _
  subst hb0
  refine (shapeCast_apply v _ (ix2 a (0 : Fin 1)) (ix1 a) ?_).trans
    (broadcastInDim_apply _ hb v (ix2 a (0 : Fin 1)) (ix1 a) ?_).symm
  · rw [Shape.rowMajor_val_one, Shape.rowMajor_val_two]; simp
  · intro d
    match d with
    | ⟨0, _⟩ => simp

/-- The degree column is the same in both programs: the same degree vector, reshaped in one and broadcast in the other. -/
theorem degK_eq (dst : EV) : degK dst = Cert.Sage.Ref.degR dst := col_eq (degVecK dst) _

end Cert.KernelIdeal.Fr

end
-- ==== Proof.KI.Final.lean ====
/-
  What the idealized kernel program returns.

  Walking @main's items from the launch: the first stretch leaves the degree column and the neighbour sums of the input
  features; region 0 leaves the first layer's features and running output; each later stretch leaves the neighbour sums
  of the previous layer's features and touches nothing else a region reads; each later region leaves the next layer's
  features and running output. The running output after region 2 is the three-layer network of the specification, with
  the neighbour sums and the degree column as the reference program spells them.
-/
import proofs.«162329_j42099269436028_1_alg».proof.Proof.KI.Main
import proofs.«162329_j42099269436028_1_alg».proof.Proof.KI.Value
import proofs.«162329_j42099269436028_1_alg».proof.Proof.KI.Bridge

noncomputable section

namespace Cert.KernelIdeal.Fr

open Cert.KernelIdeal Cert.KernelIdeal.Gen
open Idealize.ShloMosaic Idealize.ShloMosaic.TcCoe Idealize.SL.Sem
open Cert.Sage

theorem stepTmp_congr {a a' b b' : FVec Ideal SN .f32} {d d' : FVec Ideal SD .f32} (ha : a = a') (hb : b = b') (hd : d = d') :
    stepTmp a b d = stepTmp a' b' d' := by subst ha hb hd; rfl
theorem stepRes_congr {r r' t t' : FVec Ideal SN .f32} (s : EReal) (hr : r = r') (ht : t = t') :
    stepRes r t s = stepRes r' t' s := by subst hr ht; rfl

variable (m : (ℓ : Loc nD τ sig) → Buf (Elt Ideal) ℓ) (ρ : Dev nD → PrngReg) (c : Dev nD)

/-! ## Buffers a stretch does not write -/

theorem W1_of (b : Ref sig .tc) (h : b ∉ hostOps0_W) : W1 m ρ c (Proc.devRef .tc b) = W0 m ρ c (Proc.devRef .tc b) :=
  StableHlo.after_of_writes_sub hostOps0 _ hostOps0_writes h
theorem W3_of (b : Ref sig .tc) (h : b ∉ hostOps1_W) : W3 m ρ c (Proc.devRef .tc b) = W2 m ρ c (Proc.devRef .tc b) :=
  StableHlo.after_of_writes_sub hostOps1 _ hostOps1_writes h
theorem W5_of (b : Ref sig .tc) (h : b ∉ hostOps2_W) : W5 m ρ c (Proc.devRef .tc b) = W4 m ρ c (Proc.devRef .tc b) :=
  StableHlo.after_of_writes_sub hostOps2 _ hostOps2_writes h

/-! ## The index arrays and the degree column at every boundary -/

theorem W2_arg1 : W2 m ρ c (Proc.devRef .tc main_arg1) = m ((c : Thread nD τ).loc main_arg1) :=
  (W2_of_ne m ρ c main_arg1 (by decide) (by decide)).trans ((W1_of m ρ c main_arg1 (by decide)).trans rfl)
theorem W2_arg2 : W2 m ρ c (Proc.devRef .tc main_arg2) = m ((c : Thread nD τ).loc main_arg2) :=
  (W2_of_ne m ρ c main_arg2 (by decide) (by decide)).trans ((W1_of m ρ c main_arg2 (by decide)).trans rfl)
theorem W4_arg1 : W4 m ρ c (Proc.devRef .tc main_arg1) = m ((c : Thread nD τ).loc main_arg1) :=
  (W4_of_ne m ρ c main_arg1 (by decide)).trans ((W3_of m ρ c main_arg1 (by decide)).trans (W2_arg1 m ρ c))
theorem W4_arg2 : W4 m ρ c (Proc.devRef .tc main_arg2) = m ((c : Thread nD τ).loc main_arg2) :=
  (W4_of_ne m ρ c main_arg2 (by decide)).trans ((W3_of m ρ c main_arg2 (by decide)).trans (W2_arg2 m ρ c))

theorem W1_deg : W1 m ρ c (Proc.devRef .tc main_v6) = degK (m ((c : Thread nD τ).loc main_arg2)) :=
  host0_v6 (W0 m ρ c)
theorem W3_deg : W3 m ρ c (Proc.devRef .tc main_v6) = degK (m ((c : Thread nD τ).loc main_arg2)) :=
  (W3_of m ρ c main_v6 (by decide)).trans ((W2_of_ne m ρ c main_v6 (by decide) (by decide)).trans (W1_deg m ρ c))
theorem W5_deg : W5 m ρ c (Proc.devRef .tc main_v6) = degK (m ((c : Thread nD τ).loc main_arg2)) :=
  (W5_of m ρ c main_v6 (by decide)).trans ((W4_arr m ρ c 2).trans (((dat1 (F := Ideal) (V3 m ρ) c).arrAt_in 2 rfl _).trans
    ((A_eq1 (V3 m ρ) c 2).trans (W3_deg m ρ c))))

/-! ## The layers -/

/-- The first layer's features. -/
def T1 : FVec Ideal SN .f32 :=
  stepTmp (m ((c : Thread nD τ).loc main_arg0))
    (aggK (m ((c : Thread nD τ).loc main_arg1)) (m ((c : Thread nD τ).loc main_arg2)) (m ((c : Thread nD τ).loc main_arg0)))
    (degK (m ((c : Thread nD τ).loc main_arg2)))
/-- The running output after the first layer. -/
def R1 : FVec Ideal SN .f32 := stepRes (m ((c : Thread nD τ).loc main_arg0)) (T1 m c) ((1 / 1 : ℝ) : EReal)
/-- The second layer's features. -/
def T2 : FVec Ideal SN .f32 :=
  stepTmp (T1 m c) (aggK (m ((c : Thread nD τ).loc main_arg1)) (m ((c : Thread nD τ).loc main_arg2)) (T1 m c)) (degK (m ((c : Thread nD τ).loc main_arg2)))
/-- The running output after the second layer. -/
def R2 : FVec Ideal SN .f32 := stepRes (R1 m c) (T2 m c) ((1 / 2 : ℝ) : EReal)
/-- The third layer's features. -/
def T3 : FVec Ideal SN .f32 :=
  stepTmp (T2 m c) (aggK (m ((c : Thread nD τ).loc main_arg1)) (m ((c : Thread nD τ).loc main_arg2)) (T2 m c)) (degK (m ((c : Thread nD τ).loc main_arg2)))

/-- Region 0 leaves the first layer's features, -/
theorem T1_eq : (dat0 (F := Ideal) (V1 m ρ) c).arrAt 4 cfg0.N = T1 m c :=
  (arrAt0_4 (V1 m ρ) c).trans (stepTmp_congr ((W1_of m ρ c main_arg0 (by decide)).trans rfl) (host0_v16 (W0 m ρ c)) (W1_deg m ρ c))
/-- and the running output after the first layer. -/
theorem R1_eq : (dat0 (F := Ideal) (V1 m ρ) c).arrAt 5 cfg0.N = R1 m c :=
  (arrAt0_5 (V1 m ρ) c).trans (stepRes_congr _ ((W1_of m ρ c main_arg0 (by decide)).trans rfl)
    (stepTmp_congr ((W1_of m ρ c main_arg0 (by decide)).trans rfl) (host0_v16 (W0 m ρ c)) (W1_deg m ρ c)))

/-- Region 1 finds the first layer's features and running output where region 0 left them, -/
theorem W3_tmp : W3 m ρ c (Proc.devRef .tc main_v17_0) = T1 m c :=
  (W3_of m ρ c main_v17_0 (by decide)).trans ((W2_out4 m ρ c).trans (T1_eq m ρ c))
theorem W3_res : W3 m ρ c (Proc.devRef .tc main_v17_1) = R1 m c :=
  (W3_of m ρ c main_v17_1 (by decide)).trans ((W2_out5 m ρ c).trans (R1_eq m ρ c))
/-- and their neighbour sums where the second stretch put them. -/
theorem W3_agg : W3 m ρ c (Proc.devRef .tc main_v27)
    = aggK (m ((c : Thread nD τ).loc main_arg1)) (m ((c : Thread nD τ).loc main_arg2)) (T1 m c) := by
  refine (host1_v27 (W2 m ρ c)).trans ?_
  rw [W2_arg1, W2_arg2, W2_out4, T1_eq]

/-- Region 1 leaves the second layer's features and running output. -/
theorem T2_eq : (dat1 (F := Ideal) (V3 m ρ) c).arrAt 4 cfg1.N = T2 m c :=
  (arrAt1_4 (V3 m ρ) c).trans (stepTmp_congr (W3_tmp m ρ c) (W3_agg m ρ c) (W3_deg m ρ c))
theorem R2_eq : (dat1 (F := Ideal) (V3 m ρ) c).arrAt 5 cfg1.N = R2 m c :=
  (arrAt1_5 (V3 m ρ) c).trans (stepRes_congr _ (W3_res m ρ c) (stepTmp_congr (W3_tmp m ρ c) (W3_agg m ρ c) (W3_deg m ρ c)))

/-- Region 2 finds them where region 1 left them, and their neighbour sums where the third stretch put them. -/
theorem W5_tmp : W5 m ρ c (Proc.devRef .tc main_v28_0) = T2 m c :=
  (W5_of m ρ c main_v28_0 (by decide)).trans ((W4_arr m ρ c 4).trans (T2_eq m ρ c))
theorem W5_res : W5 m ρ c (Proc.devRef .tc main_v28_1) = R2 m c :=
  (W5_of m ρ c main_v28_1 (by decide)).trans ((W4_arr m ρ c 5).trans (R2_eq m ρ c))
theorem W5_agg : W5 m ρ c (Proc.devRef .tc main_v38)
    = aggK (m ((c : Thread nD τ).loc main_arg1)) (m ((c : Thread nD τ).loc main_arg2)) (T2 m c) := by
  refine (host2_v38 (W4 m ρ c)).trans ?_
  rw [W4_arg1, W4_arg2, show W4 m ρ c (Proc.devRef .tc main_v28_0) = T2 m c from (W4_arr m ρ c 4).trans (T2_eq m ρ c)]

/-- THE KERNEL PROGRAM'S RESULT: the running output after region 2 is the three-layer network over the program's own
    neighbour sums and degree column. -/
theorem result_eq : (dat2 (F := Ideal) (V5 m ρ) c).arrAt 5 cfg2.N
    = sage3 (aggK (m ((c : Thread nD τ).loc main_arg1)) (m ((c : Thread nD τ).loc main_arg2))) (degK (m ((c : Thread nD τ).loc main_arg2)))
        ((1 / 1 : ℝ) : EReal) ((1 / 2 : ℝ) : EReal) ((1 / 3 : ℝ) : EReal) (m ((c : Thread nD τ).loc main_arg0)) :=
  (arrAt2_5 (V5 m ρ) c).trans (stepRes_congr _ (W5_res m ρ c) (stepTmp_congr (W5_tmp m ρ c) (W5_agg m ρ c) (W5_deg m ρ c)))

/-- The same with the neighbour sums and the degree column as the reference program spells them. -/
theorem result_ref : (dat2 (F := Ideal) (V5 m ρ) c).arrAt 5 cfg2.N
    = sage3 (Cert.Sage.Ref.aggR (m ((c : Thread nD τ).loc main_arg1)) (m ((c : Thread nD τ).loc main_arg2)))
        (Cert.Sage.Ref.degR (m ((c : Thread nD τ).loc main_arg2)))
        ((1 / 1 : ℝ) : EReal) ((1 / 2 : ℝ) : EReal) ((1 / 3 : ℝ) : EReal) (m ((c : Thread nD τ).loc main_arg0)) := by
  rw [result_eq, degK_eq]
  rfl

/-- THE RUN WITH THE RESULT AS THE SPECIFICATION: every weakly fair execution of the idealized kernel program terminates
    with the result buffer at the three-layer network of the arguments and the arguments unchanged. -/
theorem run_sage : θ_run defs (onTc (τ := τ) (main (F := Ideal))) ⟨m, fun _ => 0, ρ⟩ (fun r => ∀ c : Dev nD,
      r.2.mem ((c.tc : Thread nD τ).loc main_v39_1)
        = sage3 (Cert.Sage.Ref.aggR (m ((c : Thread nD τ).loc main_arg1)) (m ((c : Thread nD τ).loc main_arg2)))
            (Cert.Sage.Ref.degR (m ((c : Thread nD τ).loc main_arg2)))
            ((1 / 1 : ℝ) : EReal) ((1 / 2 : ℝ) : EReal) ((1 / 3 : ℝ) : EReal) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_ref m ρ c), (h c).2⟩) (run_result m ρ)

end Cert.KernelIdeal.Fr

end
-- ==== Proof.lean ====
/-
  Three layers of mean aggregation over a graph: the kernel program against its reference, on the extended reals.

  Both programs count each node's incoming edges (at least one), and three times gather the current features along the
  edges, sum them per destination node, divide each node's sum by its degree and add it to the node's features; the
  running output adds each layer's new features scaled by 1, 1/2, 1/3. The gather and the scatter-add are the same host
  operations in both programs. The kernel program does the per-node update in three pipelined calls over blocks of 2000
  rows and multiplies by the factors 1, 1/2 and the named constant 1/3 where the reference divides by 1, 2, 3: on the
  extended reals dividing by a nonzero real is multiplying by its reciprocal, at the infinities too, so no finiteness
  of the inputs is used.

  The frames: each kernel program's @main is three host stretches and three regions run in order (the first region
  reads the input features through two windows, at two halves of the full share). The idealized reference's frame is
  its run with the result dropped. The value claim: the kernel's run names the result as the specification's
  three-layer function of the arguments, and so does the reference's.
-/
import proofs.«162329_j42099269436028_1_alg».proof.Defs
import proofs.«162329_j42099269436028_1_alg».proof.Proof.Gen.Kernel
import proofs.«162329_j42099269436028_1_alg».proof.Proof.Gen.KernelIdeal
import proofs.«162329_j42099269436028_1_alg».proof.Proof.Gen.ReferenceIdeal
import proofs.«162329_j42099269436028_1_alg».proof.Proof.Gen.Pre_finite_inputs
import proofs.«162329_j42099269436028_1_alg».proof.Proof.KB.Main
import proofs.«162329_j42099269436028_1_alg».proof.Proof.KI.Final
import proofs.«162329_j42099269436028_1_alg».proof.Proof.RefValue
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Fr.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The idealized reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Sage.Ref.ref_run m ρ)

/-- The one rewrite of the ideal pass: the third layer's factor, the word nearest to one third, is named one third. -/
theorem preserves : Cert.preserves_Kernel_KernelIdeal :=
  IdealRules.named_const.statement Cert.KernelIdeal.κ "inv_3" .f32 0x3EAAAAAB#32 ((1 / 3 : ℝ) : EReal) rfl

/-- Both idealized programs end with the result at the three-layer network of the arguments: the kernel's run and the
    reference's run state the same function, the reference's at arguments that agree with the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Fr.run_sage m ρ, ?_⟩
  refine (θ_run Cert.ReferenceIdeal.defs _ _).mono (fun _ h c => ⟨(h c).1.trans ?_, (h c).2⟩) (Cert.Sage.Ref.ref_run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
